-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x36x1024 : Shape := ⟨3, ![128, 36, 1024]⟩
abbrev S640x50x1024 : Shape := ⟨3, ![640, 50, 1024]⟩
abbrev S640 : Shape := ⟨1, ![640]⟩
abbrev S_ : Shape := ⟨0, ![]⟩

class Facts : Prop where
  bcast_S_S128x36x1024 : S_.BroadcastsInDim S128x36x1024 (![] : Fin 0 → Fin S128x36x1024.rank)
  reducesTo_S128x36x1024_S_d0_1_2 : S128x36x1024.ReducesTo [0, 1, 2] S_
  h_S_ : 0 < S_.numel
  bcast_S_S640x50x1024 : S_.BroadcastsInDim S640x50x1024 (![] : Fin 0 → Fin S640x50x1024.rank)
  reducesTo_S640x50x1024_S_d0_1_2 : S640x50x1024.ReducesTo [0, 1, 2] S_

variable [Facts]

def fn {F : FTy → Type} [FloatOps F] (main_arg0 : FVec F S128x36x1024 .f32) (main_arg1 : FVec F S640x50x1024 .f32) (main_arg2 : IVec S640 32) : IVec S_ 1 :=
  let main_v0 : FVec F S128x36x1024 .f32 := Host.absf main_arg0
  let main_cst : FVec F S_ .f32 := constant S_ .f32 0x7F800000#32
  let main_v1 : FVec F S128x36x1024 .f32 := broadcastInDim S128x36x1024 ![] bcast_S_S128x36x1024 main_cst
  let main_v2 : IVec S128x36x1024 1 := cmpf .olt main_v0 main_v1
  let main_c : IVec S_ 1 := constantI S_ 1 1#1
  let main_v3 : IVec S_ 1 := (fun x v => Host.reduce IntOp.andi x v reducesTo_S128x36x1024_S_d0_1_2 h_S_) main_v2 main_c
  let main_v4 : FVec F S640x50x1024 .f32 := Host.absf main_arg1
  let main_cst_0 : FVec F S_ .f32 := constant S_ .f32 0x7F800000#32
  let main_v5 : FVec F S640x50x1024 .f32 := broadcastInDim S640x50x1024 ![] bcast_S_S640x50x1024 main_cst_0
  let main_v6 : IVec S640x50x1024 1 := cmpf .olt main_v4 main_v5
  let main_c_1 : IVec S_ 1 := constantI S_ 1 1#1
  let main_v7 : IVec S_ 1 := (fun x v => Host.reduce IntOp.andi x v reducesTo_S640x50x1024_S_d0_1_2 h_S_) main_v6 main_c_1
  let main_v8 : IVec S_ 1 := andi main_v3 main_v7
  main_v8
-- ==== Kernel.lean ====
abbrev S128x36x1024 : Shape := ⟨3, ![128, 36, 1024]⟩
abbrev S640x50x1024 : Shape := ⟨3, ![640, 50, 1024]⟩
abbrev S640 : Shape := ⟨1, ![640]⟩
abbrev S640x1 : Shape := ⟨2, ![640, 1]⟩
abbrev S128x1024 : Shape := ⟨2, ![128, 1024]⟩
abbrev S32x36x1024 : Shape := ⟨3, ![32, 36, 1024]⟩
abbrev S32x1024 : Shape := ⟨2, ![32, 1024]⟩
abbrev S32x36 : Shape := ⟨2, ![32, 36]⟩
abbrev S32x36x1 : Shape := ⟨3, ![32, 36, 1]⟩
abbrev S640x128 : Shape := ⟨2, ![640, 128]⟩
abbrev S32x50x1024 : Shape := ⟨3, ![32, 50, 1024]⟩
abbrev S32x1 : Shape := ⟨2, ![32, 1]⟩
abbrev S32x128 : Shape := ⟨2, ![32, 128]⟩
abbrev S32x50 : Shape := ⟨2, ![32, 50]⟩
abbrev S32x50x1 : Shape := ⟨3, ![32, 50, 1]⟩
abbrev S32 : Shape := ⟨1, ![32]⟩
abbrev S128 : Shape := ⟨1, ![128]⟩
abbrev S128x1 : Shape := ⟨2, ![128, 1]⟩
abbrev S1024x128 : Shape := ⟨2, ![1024, 128]⟩
abbrev S128x640 : Shape := ⟨2, ![128, 640]⟩

abbrev nBuf : Space → Nat
  | .hbm => 7
  | .vmem => 11
  | .smem => 0
  | _ => 0

abbrev bufTy : (tb : Table) → Fin (tcTables nBuf tb) → BufTy
  | .hbm, ⟨0, _⟩ => ⟨S128x36x1024, .f32⟩
  | .hbm, ⟨1, _⟩ => ⟨S640x50x1024, .f32⟩
  | .hbm, ⟨2, _⟩ => ⟨S640, .i32⟩
  | .hbm, ⟨3, _⟩ => ⟨S640x1, .i32⟩
  | .hbm, ⟨4, _⟩ => ⟨S128x1024, .f32⟩
  | .hbm, ⟨5, _⟩ => ⟨S640x128, .f32⟩
  | .hbm, ⟨6, _⟩ => ⟨S128x640, .f32⟩
  | .local _ .vmem, ⟨0, _⟩ => ⟨S32x36x1024, .f32⟩
  | .local _ .vmem, ⟨1, _⟩ => ⟨S32x36x1024, .f32⟩
  | .local _ .vmem, ⟨2, _⟩ => ⟨S32x1024, .f32⟩
  | .local _ .vmem, ⟨3, _⟩ => ⟨S32x1024, .f32⟩
  | .local _ .vmem, ⟨4, _⟩ => ⟨S32x50x1024, .f32⟩
  | .local _ .vmem, ⟨5, _⟩ => ⟨S32x50x1024, .f32⟩
  | .local _ .vmem, ⟨6, _⟩ => ⟨S32x1, .i32⟩
  | .local _ .vmem, ⟨7, _⟩ => ⟨S32x1, .i32⟩
  | .local _ .vmem, ⟨8, _⟩ => ⟨S128x1024, .f32⟩
  | .local _ .vmem, ⟨9, _⟩ => ⟨S32x128, .f32⟩
  | .local _ .vmem, ⟨10, _⟩ => ⟨S32x128, .f32⟩
  | _, _ => ⟨S128x36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x36x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x50x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S640_S640x1 : S640.ShapeCasts S640x1
  inb_S32x36x1024_S32x36x1024_0_0_0 : ∀ a, (![0, 0, 0] : Fin 3 → Nat) a + S32x36x1024.size a ≤ S32x36x1024.size a
  h_S32x36x1024 : 0 < S32x36x1024.numel
  reduces_S32x36x1024_S32x36 : S32x36x1024.Reduces [2] S32x36
  shapeCasts_S32x36_S32x36x1 : S32x36.ShapeCasts S32x36x1
  broadcasts_S32x36x1_S32x36x1024 : S32x36x1.Broadcasts S32x36x1024
  reduces_S32x36x1024_S32x1024 : S32x36x1024.Reduces [1] S32x1024
  inb_S32x1024_S32x1024_0_0 : ∀ a, (![0, 0] : Fin 2 → Nat) a + S32x1024.size a ≤ S32x1024.size a
  h_S32x1024 : 0 < S32x1024.numel
  inb_S32x50x1024_S32x50x1024_0_0_0 : ∀ a, (![0, 0, 0] : Fin 3 → Nat) a + S32x50x1024.size a ≤ S32x50x1024.size a
  h_S32x50x1024 : 0 < S32x50x1024.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x50_d1_w32 : S32x50.Iotas .tc 32 [1]
  broadcasts_S32x1_S32x50 : S32x1.Broadcasts S32x50
  natLt_1_32 : 1 < 32
  shapeCasts_S32x50_S32x50x1 : S32x50.ShapeCasts S32x50x1
  reduces_S32x50x1024_S32x50 : S32x50x1024.Reduces [2] S32x50
  broadcasts_S32x50x1_S32x50x1024 : S32x50x1.Broadcasts S32x50x1024
  reduces_S32x50x1024_S32x1024 : S32x50x1024.Reduces [1] S32x1024
  broadcasts_S32x1_S32x1024 : S32x1.Broadcasts S32x1024
  reduces_S32x1024_S32 : S32x1024.Reduces [1] S32
  shapeCasts_S32_S32x1 : S32.ShapeCasts S32x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  reduces_S128x1024_S128 : S128x1024.Reduces [1] S128
  shapeCasts_S128_S128x1 : S128.ShapeCasts S128x1
  broadcasts_S128x1_S128x1024 : S128x1.Broadcasts S128x1024
  bitsLt_bf16_f32 : FTy.bits .bf16 < FTy.bits .f32
  transposes_S128x1024_p1_0_S1024x128 : S128x1024.Transposes [1, 0] S1024x128
  broadcasts_S32x1_S32x128 : S32x1.Broadcasts S32x128
  inb_S32x128_S32x128_0_0 : ∀ a, (![0, 0] : Fin 2 → Nat) a + S32x128.size a ≤ S32x128.size a
  h_S32x128 : 0 < S32x128.numel
  transposes_S640x128_S128x640_1_0 : S640x128.Transposes [1, 0] S128x640
  dot_S32x1024_S1024x128_S32x128_1_0_0_1_n_n_wf : DotDims.WF S32x1024 S1024x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x36x1024.size a ≤ S128x36x1024.size a
  hwx0_0 : ∀ i : grid0.Coords, EltTy.bits .f32 = 32 ∨ (Rect.block (s := S128x36x1024) S32x36x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S128x1024.size a
  hwx0_1 : ∀ i : grid0.Coords, EltTy.bits .f32 = 32 ∨ (Rect.block (s := S128x1024) S32x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x50x1024.size a ≤ S640x50x1024.size a
  hwx1_0 : ∀ i : grid1.Coords, EltTy.bits .f32 = 32 ∨ (Rect.block (s := S640x50x1024) S32x50x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S640x1.size a
  hwx1_1 : ∀ i : grid1.Coords, EltTy.bits .i32 = 32 ∨ (Rect.block (s := S640x1) S32x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S128x1024.size a
  hwx1_2 : ∀ i : grid1.Coords, EltTy.bits .f32 = 32 ∨ (Rect.block (s := S128x1024) S128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S640x128.size a
  hwx1_3 : ∀ i : grid1.Coords, EltTy.bits .f32 = 32 ∨ (Rect.block (s := S640x128) S32x128.size (cc1_transform_3 i) (hinb1_3 i)).WholeWords (EltTy.packing .f32)

variable [Facts₀]

def dot_S32x1024_S1024x128_S32x128_1_0_0_1_n_n : DotDims S32x1024 S1024x128 S32x128 where
  lhsContracting := [1]
  rhsContracting := [0]
  lhsNonContracting := [0]
  rhsNonContracting := [1]
  lhsBatch := []
  rhsBatch := []
  wf := dot_S32x1024_S1024x128_S32x128_1_0_0_1_n_n_wf

abbrev win0_0 : Pipeline.Window sig grid0 :=
  Pipeline.Window.ofSpec (Memref.whole main_arg0) S32x36x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S32x50x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S32x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x36x1024 : Shape := ⟨3, ![128, 36, 1024]⟩
abbrev S640x50x1024 : Shape := ⟨3, ![640, 50, 1024]⟩
abbrev S640 : Shape := ⟨1, ![640]⟩
abbrev S50 : Shape := ⟨1, ![50]⟩
abbrev S1x50 : Shape := ⟨2, ![1, 50]⟩
abbrev S640x1 : Shape := ⟨2, ![640, 1]⟩
abbrev S640x50 : Shape := ⟨2, ![640, 50]⟩
abbrev S_ : Shape := ⟨0, ![]⟩
abbrev S128x36 : Shape := ⟨2, ![128, 36]⟩
abbrev S128x36x1 : Shape := ⟨3, ![128, 36, 1]⟩
abbrev S128x1024 : Shape := ⟨2, ![128, 1024]⟩
abbrev S640x50x1 : Shape := ⟨3, ![640, 50, 1]⟩
abbrev S640x1024 : Shape := ⟨2, ![640, 1024]⟩
abbrev S128 : Shape := ⟨1, ![128]⟩
abbrev S128x1 : Shape := ⟨2, ![128, 1]⟩
abbrev S1024x640 : Shape := ⟨2, ![1024, 640]⟩
abbrev S128x640 : Shape := ⟨2, ![128, 640]⟩
abbrev S1x640 : Shape := ⟨2, ![1, 640]⟩

abbrev nBuf : Space → Nat
  | .hbm => 102
  | .vmem => 0
  | .smem => 0
  | _ => 0

abbrev bufTy : (tb : Table) → Fin (tcTables nBuf tb) → BufTy
  | .hbm, ⟨0, _⟩ => ⟨S128x36x1024, .f32⟩
  | .hbm, ⟨1, _⟩ => ⟨S640x50x1024, .f32⟩
  | .hbm, ⟨2, _⟩ => ⟨S640, .i32⟩
  | .hbm, ⟨3, _⟩ => ⟨S50, .i32⟩
  | .hbm, ⟨4, _⟩ => ⟨S1x50, .i32⟩
  | .hbm, ⟨5, _⟩ => ⟨S640x1, .i32⟩
  | .hbm, ⟨6, _⟩ => ⟨S640x50, .i32⟩
  | .hbm, ⟨7, _⟩ => ⟨S640x50, .i32⟩
  | .hbm, ⟨8, _⟩ => ⟨S640x50, .i1⟩
  | .hbm, ⟨9, _⟩ => ⟨S640, .f32⟩
  | .hbm, ⟨10, _⟩ => ⟨S_, .f32⟩
  | .hbm, ⟨11, _⟩ => ⟨S_, .f32⟩
  | .hbm, ⟨12, _⟩ => ⟨S128x36x1024, .f32⟩
  | .hbm, ⟨13, _⟩ => ⟨S128x36x1024, .i1⟩
  | .hbm, ⟨14, _⟩ => ⟨S_, .f32⟩
  | .hbm, ⟨15, _⟩ => ⟨S128x36x1024, .f32⟩
  | .hbm, ⟨16, _⟩ => ⟨S128x36x1024, .f32⟩
  | .hbm, ⟨17, _⟩ => ⟨S128x36x1024, .f32⟩
  | .hbm, ⟨18, _⟩ => ⟨S128x36x1024, .f32⟩
  | .hbm, ⟨19, _⟩ => ⟨S_, .f32⟩
  | .hbm, ⟨20, _⟩ => ⟨S128x36, .f32⟩
  | .hbm, ⟨21, _⟩ => ⟨S128x36x1, .f32⟩
  | .hbm, ⟨22, _⟩ => ⟨S128x36x1, .f32⟩
  | .hbm, ⟨23, _⟩ => ⟨S_, .f32⟩
  | .hbm, ⟨24, _⟩ => ⟨S128x36x1, .f32⟩
  | .hbm, ⟨25, _⟩ => ⟨S128x36x1, .f32⟩
  | .hbm, ⟨26, _⟩ => ⟨S128x36x1024, .f32⟩
  | .hbm, ⟨27, _⟩ => ⟨S128x36x1024, .f32⟩
  | .hbm, ⟨28, _⟩ => ⟨S_, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S640x50x1, .i1⟩
  | .hbm, ⟨34, _⟩ => ⟨S640x50x1, .f32⟩
  | .hbm, ⟨35, _⟩ => ⟨S640x50x1024, .f32⟩
  | .hbm, ⟨36, _⟩ => ⟨S640x50x1024, .f32⟩
  | .hbm, ⟨37, _⟩ => ⟨S_, .f32⟩
  | .hbm, ⟨38, _⟩ => ⟨S640x1024, .f32⟩
  | .hbm, ⟨39, _⟩ => ⟨S640x1, .f32⟩
  | .hbm, ⟨40, _⟩ => ⟨S640x1024, .f32⟩
  | .hbm, ⟨41, _⟩ => ⟨S640x1024, .f32⟩
  | .hbm, ⟨42, _⟩ => ⟨S128x1024, .f32⟩
  | .hbm, ⟨43, _⟩ => ⟨S_, .f32⟩
  | .hbm, ⟨44, _⟩ => ⟨S128, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S128x1024, .f32⟩
  | .hbm, ⟨51, _⟩ => ⟨S128x1024, .f32⟩
  | .hbm, ⟨52, _⟩ => ⟨S640x1024, .f32⟩
  | .hbm, ⟨53, _⟩ => ⟨S_, .f32⟩
  | .hbm, ⟨54, _⟩ => ⟨S640, .f32⟩
  | .hbm, ⟨55, _⟩ => ⟨S640x1, .f32⟩
  | .hbm, ⟨56, _⟩ => ⟨S640x1, .f32⟩
  | .hbm, ⟨57, _⟩ => ⟨S_, .f32⟩
  | .hbm, ⟨58, _⟩ => ⟨S640x1, .f32⟩
  | .hbm, ⟨59, _⟩ => ⟨S640x1, .f32⟩
  | .hbm, ⟨60, _⟩ => ⟨S640x1024, .f32⟩
  | .hbm, ⟨61, _⟩ => ⟨S640x1024, .f32⟩
  | .hbm, ⟨62, _⟩ => ⟨S1024x640, .f32⟩
  | .hbm, ⟨63, _⟩ => ⟨S128x640, .f32⟩
  | .hbm, ⟨64, _⟩ => ⟨S_, .f32⟩
  | .hbm, ⟨65, _⟩ => ⟨S_, .f32⟩
  | .hbm, ⟨66, _⟩ => ⟨S640x50x1024, .f32⟩
  | .hbm, ⟨67, _⟩ => ⟨S640x50x1024, .i1⟩
  | .hbm, ⟨68, _⟩ => ⟨S_, .f32⟩
  | .hbm, ⟨69, _⟩ => ⟨S640x50x1024, .f32⟩
  | .hbm, ⟨70, _⟩ => ⟨S640x50x1024, .f32⟩
  | .hbm, ⟨71, _⟩ => ⟨S640x50x1024, .f32⟩
  | .hbm, ⟨72, _⟩ => ⟨S640x50x1024, .f32⟩
  | .hbm, ⟨73, _⟩ => ⟨S_, .f32⟩
  | .hbm, ⟨74, _⟩ => ⟨S640x50, .f32⟩
  | .hbm, ⟨75, _⟩ => ⟨S640x50x1, .f32⟩
  | .hbm, ⟨76, _⟩ => ⟨S640x50x1, .f32⟩
  | .hbm, ⟨77, _⟩ => ⟨S_, .f32⟩
  | .hbm, ⟨78, _⟩ => ⟨S640x50x1, .f32⟩
  | .hbm, ⟨79, _⟩ => ⟨S640x50x1, .f32⟩
  | .hbm, ⟨80, _⟩ => ⟨S640x50x1024, .f32⟩
  | .hbm, ⟨81, _⟩ => ⟨S640x50x1024, .f32⟩
  | .hbm, ⟨82, _⟩ => ⟨S640x50x1, .i1⟩
  | .hbm, ⟨83, _⟩ => ⟨S640x50x1, .f32⟩
  | .hbm, ⟨84, _⟩ => ⟨S640x50x1024, .f32⟩
  | .hbm, ⟨85, _⟩ => ⟨S640x50x1024, .f32⟩
  | .hbm, ⟨86, _⟩ => ⟨S_, .f32⟩
  | .hbm, ⟨87, _⟩ => ⟨S640x1024, .f32⟩
  | .hbm, ⟨88, _⟩ => ⟨S_, .f32⟩
  | .hbm, ⟨89, _⟩ => ⟨S128x1024, .f32⟩
  | .hbm, ⟨90, _⟩ => ⟨S1024x640, .f32⟩
  | .hbm, ⟨91, _⟩ => ⟨S128x640, .f32⟩
  | .hbm, ⟨92, _⟩ => ⟨S1x640, .f32⟩
  | .hbm, ⟨93, _⟩ => ⟨S_, .f32⟩
  | .hbm, ⟨94, _⟩ => ⟨S1x640, .f32⟩
  | .hbm, ⟨95, _⟩ => ⟨S1x640, .f32⟩
  | .hbm, ⟨96, _⟩ => ⟨S128x640, .f32⟩
  | .hbm, ⟨97, _⟩ => ⟨S128x640, .f32⟩
  | .hbm, ⟨98, _⟩ => ⟨S128x640, .f32⟩
  | .hbm, ⟨99, _⟩ => ⟨S_, .f32⟩
  | .hbm, ⟨100, _⟩ => ⟨S128x640, .f32⟩
  | .hbm, ⟨101, _⟩ => ⟨S128x640, .f32⟩
  | _, _ => ⟨S128x36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S640_S640x1_0 : S640.BroadcastsInDim S640x1 (![0] : Fin 1 → Fin S640x1.rank)
  bcast_S1x50_S640x50_0_1 : S1x50.BroadcastsInDim S640x50 (![0, 1] : Fin 2 → Fin S640x50.rank)
  bcast_S640x1_S640x50_0_1 : S640x1.BroadcastsInDim S640x50 (![0, 1] : Fin 2 → Fin S640x50.rank)
  bcast_S_S128x36x1024 : S_.BroadcastsInDim S128x36x1024 (![] : Fin 0 → Fin S128x36x1024.rank)
  reducesTo_S128x36x1024_S128x36_d2 : S128x36x1024.ReducesTo [2] S128x36
  h_S_ : 0 < S_.numel
  bcast_S128x36_S128x36x1_0_1 : S128x36.BroadcastsInDim S128x36x1 (![0, 1] : Fin 2 → Fin S128x36x1.rank)
  bcast_S_S128x36x1 : S_.BroadcastsInDim S128x36x1 (![] : Fin 0 → Fin S128x36x1.rank)
  bcast_S128x36x1_S128x36x1024_0_1_2 : S128x36x1.BroadcastsInDim S128x36x1024 (![0, 1, 2] : Fin 3 → Fin S128x36x1024.rank)
  reducesTo_S128x36x1024_S128x1024_d1 : S128x36x1024.ReducesTo [1] S128x1024
  bcast_S_S128x1024 : S_.BroadcastsInDim S128x1024 (![] : Fin 0 → Fin S128x1024.rank)
  bcast_S640x50_S640x50x1_0_1 : S640x50.BroadcastsInDim S640x50x1 (![0, 1] : Fin 2 → Fin S640x50x1.rank)
  bcast_S640x50x1_S640x50x1024_0_1_2 : S640x50x1.BroadcastsInDim S640x50x1024 (![0, 1, 2] : Fin 3 → Fin S640x50x1024.rank)
  reducesTo_S640x50x1024_S640x1024_d1 : S640x50x1024.ReducesTo [1] S640x1024
  bcast_S640x1_S640x1024_0_1 : S640x1.BroadcastsInDim S640x1024 (![0, 1] : Fin 2 → Fin S640x1024.rank)
  reducesTo_S128x1024_S128_d1 : S128x1024.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x1024_0_1 : S128x1.BroadcastsInDim S128x1024 (![0, 1] : Fin 2 → Fin S128x1024.rank)
  reducesTo_S640x1024_S640_d1 : S640x1024.ReducesTo [1] S640
  bcast_S_S640x1 : S_.BroadcastsInDim S640x1 (![] : Fin 0 → Fin S640x1.rank)
  transposes_S640x1024_S1024x640_1_0 : S640x1024.Transposes [1, 0] S1024x640
  bcast_S_S640x50x1024 : S_.BroadcastsInDim S640x50x1024 (![] : Fin 0 → Fin S640x50x1024.rank)
  reducesTo_S640x50x1024_S640x50_d2 : S640x50x1024.ReducesTo [2] S640x50
  bcast_S_S640x50x1 : S_.BroadcastsInDim S640x50x1 (![] : Fin 0 → Fin S640x50x1.rank)
  bcast_S640_S1x640_1 : S640.BroadcastsInDim S1x640 (![1] : Fin 1 → Fin S1x640.rank)
  bcast_S_S1x640 : S_.BroadcastsInDim S1x640 (![] : Fin 0 → Fin S1x640.rank)
  bcast_S1x640_S128x640_0_1 : S1x640.BroadcastsInDim S128x640 (![0, 1] : Fin 2 → Fin S128x640.rank)
  bcast_S_S128x640 : S_.BroadcastsInDim S128x640 (![] : Fin 0 → Fin S128x640.rank)
  dot_S128x1024_S1024x640_S128x640_1_0_0_1_n_n_wf : DotDims.WF S128x1024 S1024x640 S128x640 [1] [0] [0] [1] [] []

variable [Facts₀]

def dot_S128x1024_S1024x640_S128x640_1_0_0_1_n_n : DotDims S128x1024 S1024x640 S128x640 where
  lhsContracting := [1]
  rhsContracting := [0]
  lhsNonContracting := [0]
  rhsNonContracting := [1]
  lhsBatch := []
  rhsBatch := []
  wf := dot_S128x1024_S1024x640_S128x640_1_0_0_1_n_n_wf

class Facts : Prop extends Facts₀ where

variable [Facts]
-- ==== Proof.KernelRun.lean ====
/-
  The idealized kernel program run with its result NAMED: @main is a reshape of the lengths, the image region, the caption
  region and a transpose; every execution ends with every unscoped buffer at the last boundary's contents `Gen.W4` (the
  fold of the four segments over the launch memory), in particular the result buffer, and the arguments as launched.
-/
import proofs.«163725_j65214783422660_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main terminates without a fault; the result buffer ends at the last boundary's contents and the three
    arguments end as launched. -/
theorem run_main : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KRun

end
-- ==== Proof.Spec.lean ====
/-
  What the two programs compute, one output entry at a time, over the extended reals.

  For image i (36 regions of 1024 features), caption c (50 words of 1024 features) and the caption's length word l:

  * every region and every word is passed through the leaky rectifier (slope 1/10 below zero) and divided by its
    Euclidean norm plus a small constant: `unitRow (leakyRow x)`;
  * `regionSumRow` adds the 36 normalized regions of an image, feature by feature;
  * `maskAt l w` is 1 when word w lies before the caption's length and 0 otherwise; `rawSumRow` adds the masked raw words,
    `wordSumRow` the masked normalized words;
  * the caption's mean vector is `rawSumRow / length`, the image's mean vector `regionSumRow / 36`; both are normalized
    again (`unitRow`) and their inner product is the first similarity;
  * the second similarity is the inner product of `wordSumRow` and `regionSumRow`, divided by `36 · length`;
  * the entry is the half of their sum.

  The kernel multiplies caption-side factor first and adds the first similarity first (`pairK`); the reference multiplies
  image-side factor first and adds the second similarity first (`pairR`). Multiplication and addition of extended reals
  are commutative, with no side condition, so the two are equal: `pairR_eq_pairK`.
-/
import Idealize.ShloMosaic.PureOps.Ideal
import Idealize.ShloMosaic.PureOps.Ideal.Laws
import Idealize.ShloMosaic.Lib.ValueIdx

noncomputable section

open scoped BigOperators

namespace Cert.RegionCorr

open Idealize.ShloMosaic

/-- The four float constants of both programs, as the extended reals their words denote. -/
def slope : EReal := Ideal.ofBits .f32 0x3DCCCCCD#32
def eps : EReal := Ideal.ofBits .f32 0x322BCC77#32
def c36 : EReal := Ideal.ofBits .f32 0x42100000#32
def c2 : EReal := Ideal.ofBits .f32 0x40000000#32

/-- The leaky rectifier: x where x ≥ 0, slope · x elsewhere. -/
def leaky (x : EReal) : EReal :=
  Scalar.select (FloatOps.cmpf (F := Ideal) (φ := .f32) .oge x (Ideal.ofBits .f32 0x00000000#32)) x (slope * x)

def leakyRow {n : Nat} (x : Fin n → EReal) : Fin n → EReal := fun k => leaky (x k)

/-- A row divided by (its Euclidean norm + eps). -/
def unitRow {n : Nat} (x : Fin n → EReal) (d : Fin n) : EReal :=
  Ideal.div (x d) (Ideal.sqrt (∑ k : Fin n, x k * x k) + eps)

/-- The sum over an image's regions of its normalized rectified regions. -/
def regionSumRow {R D : Nat} (Ai : Fin R → Fin D → EReal) (d : Fin D) : EReal :=
  ∑ r : Fin R, unitRow (leakyRow (Ai r)) d

/-- The word mask: the one-bit answer of "w < l" (signed, on 32-bit words), read as the number 0 or 1. -/
def maskBit (l : BitVec 32) (w : Nat) : BitVec 1 := IntOp.cmpi .slt (BitVec.ofNat 32 w) l
def maskAt {W : Nat} (l : BitVec 32) (w : Fin W) : EReal := (((maskBit l w.val).toNat : ℝ) : EReal)

/-- The caption's length as a number. -/
def lenf (l : BitVec 32) : EReal := ((l.toInt : ℝ) : EReal)

def rawSumRow {W D : Nat} (Bc : Fin W → Fin D → EReal) (l : BitVec 32) (d : Fin D) : EReal :=
  ∑ w : Fin W, Bc w d * maskAt l w

def wordSumRow {W D : Nat} (Bc : Fin W → Fin D → EReal) (l : BitVec 32) (d : Fin D) : EReal :=
  ∑ w : Fin W, unitRow (leakyRow (Bc w)) d * maskAt l w

def capVecRow {W D : Nat} (Bc : Fin W → Fin D → EReal) (l : BitVec 32) (d : Fin D) : EReal :=
  Ideal.div (rawSumRow Bc l d) (lenf l)

def imgVecRow {D : Nat} (Ri : Fin D → EReal) (d : Fin D) : EReal := Ideal.div (Ri d) c36

/-- One entry in the kernel's order of factors and terms; `Ri` is the image's region sum. -/
def pairK {W D : Nat} (Ri : Fin D → EReal) (Bc : Fin W → Fin D → EReal) (l : BitVec 32) : EReal :=
  Ideal.div
    ((∑ d : Fin D, unitRow (capVecRow Bc l) d * unitRow (imgVecRow Ri) d)
      + Ideal.div (∑ d : Fin D, wordSumRow Bc l d * Ri d) (c36 * lenf l)) c2

/-- The same entry in the reference's order. -/
def pairR {W D : Nat} (Ri : Fin D → EReal) (Bc : Fin W → Fin D → EReal) (l : BitVec 32) : EReal :=
  Ideal.div
    (Ideal.div (∑ d : Fin D, Ri d * wordSumRow Bc l d) (c36 * lenf l)
      + (∑ d : Fin D, unitRow (imgVecRow Ri) d * unitRow (capVecRow Bc l) d)) c2

/-- Commutativity of the product inside each inner product and of the final sum. -/
theorem pairR_eq_pairK {W D : Nat} (Ri : Fin D → EReal) (Bc : Fin W → Fin D → EReal) (l : BitVec 32) :
    pairR Ri Bc l = pairK Ri Bc l := by
  unfold pairR pairK
  rw [add_comm]
  congr 2
  · exact Finset.sum_congr rfl fun d _ => mul_comm _ _
  · exact congrArg (fun s => Ideal.div s (c36 * lenf l)) (Finset.sum_congr rfl fun d _ => mul_comm _ _)

/-- The whole result: entry (i, c) from the three argument arrays. -/
def result (A : Fin 128 → Fin 36 → Fin 1024 → EReal) (B : Fin 640 → Fin 50 → Fin 1024 → EReal) (len : Fin 640 → BitVec 32)
    (i : Fin 128) (c : Fin 640) : EReal :=
  pairK (regionSumRow (A i)) (B c) (len c)

/-- A one-bit word widened to 32 bits and read signed is the bit read unsigned. -/
theorem toInt_setWidth_bit (b : BitVec 1) : (((b.setWidth 32).toInt : ℝ) : EReal) = ((b.toNat : ℝ) : EReal) := by
  rcases BitVec.eq_zero_or_eq_one b with h | h <;> subst h <;> simp

end Cert.RegionCorr

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.KernelOps.lean ====
/-
  The kernels' vector operations read at an index, at the ideal values, in the shapes the two kernel bodies use:
  a sum over the MIDDLE axis of a rank-3 vector; the leaky rectifier; a row (last-axis) normalization of a rank-3 and of a
  rank-2 vector written with keepdims sums, casts and broadcasts, as `unitRow` of the row; the word mask.
-/
import proofs.«163725_j65214783422660_2_alg».proof.Proof.Spec
import proofs.«163725_j65214783422660_2_alg».proof.Proof.LibKeepdims

noncomputable section

open scoped BigOperators

namespace Cert.RegionCorr

open Idealize.ShloMosaic Idealize.ShloMosaic.ValueIdx Idealize.ShloMosaic.Keepdims

/-- A sum over the middle axis of a rank-3 vector, at (a, c): the sum over the middle coordinate. -/
theorem midSum3_apply {n0 n1 n2 : Nat} {φ : FTy} (v : FVec Ideal ⟨3, ![n0, n1, n2]⟩ φ) (acc : BitVec φ.bits)
    (h : (⟨3, ![n0, n1, n2]⟩ : Shape).Reduces [1] ⟨2, ![n0, n2]⟩) (hφ : FKind.Formats φ) (hacc : acc = FKind.add.neutral φ hφ)
    (a : Fin n0) (c : Fin n2) :
    multiReduction .add [1] ⟨2, ![n0, n2]⟩ v acc h hφ hacc (ix2 a c) = ∑ b : Fin n1, v (ix3 a b c) :=
  (Ideal.multiReduction_add_single v acc h hφ hacc (ix2 a c)).trans
    (Finset.sum_congr rfl fun k _ => congrArg v (funext fun d => Fin.ext (by
      match d with | ⟨0, _⟩ => rfl | ⟨1, _⟩ => rfl | ⟨2, _⟩ => rfl)))

/-- The leaky rectifier as the kernels spell it (compare with a zero splat, select, product with a slope splat), at an index. -/
theorem leaky_apply {s : Shape} (x : FVec Ideal s .f32) (i : s.Idx) :
    select (cmpf .oge x (broadcast s (Scalar.ofBits (F := Ideal) .f32 0x00000000#32))) x
      (mulf (broadcast s (Scalar.ofBits (F := Ideal) .f32 0x3DCCCCCD#32)) x) i = leaky (x i) := rfl

/-- A rank-3 vector divided by (the square root of its keepdims lane sum of squares, plus eps, broadcast back): at (i, j, k) it
    is `unitRow` of lane row (i, j). -/
theorem unit3_apply {a b c : Nat} (x : FVec Ideal ⟨3, ![a, b, c]⟩ .f32)
    (hR : (⟨3, ![a, b, c]⟩ : Shape).Reduces [2] ⟨2, ![a, b]⟩) (hφ : FKind.Formats .f32)
    (hacc : (0x00000000#32 : BitVec 32) = FKind.add.neutral .f32 hφ)
    (hC : (⟨2, ![a, b]⟩ : Shape).ShapeCasts ⟨3, ![a, b, 1]⟩) (hB : (⟨3, ![a, b, 1]⟩ : Shape).Broadcasts ⟨3, ![a, b, c]⟩)
    (i : Fin a) (j : Fin b) (k : Fin c) :
    divf x (broadcastTo ⟨3, ![a, b, c]⟩
        (addf (sqrt (shapeCast ⟨3, ![a, b, 1]⟩ (multiReduction .add [2] ⟨2, ![a, b]⟩ (mulf x x) 0x00000000#32 hR hφ hacc) hC))
          (broadcast ⟨3, ![a, b, 1]⟩ (Scalar.ofBits (F := Ideal) .f32 0x322BCC77#32))) hB) (ix3 i j k)
      = unitRow (fun k' => x (ix3 i j k')) k := by
  show Ideal.div (x (ix3 i j k)) (broadcastTo _ _ hB (ix3 i j k)) = _
  rw [bcast_col3_apply]
  show Ideal.div _ (Ideal.sqrt (shapeCast _ _ hC (ix3 i j 0)) + eps) = _
  rw [cast_col3_apply, laneSum3_apply]
  rfl

/-- The same for a rank-2 vector: at (i, k) it is `unitRow` of row i. -/
theorem unit2_apply {a c : Nat} (x : FVec Ideal ⟨2, ![a, c]⟩ .f32)
    (hR : (⟨2, ![a, c]⟩ : Shape).Reduces [1] ⟨1, ![a]⟩) (hφ : FKind.Formats .f32)
    (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩)
    (i : Fin a) (k : Fin c) :
    divf x (broadcastTo ⟨2, ![a, c]⟩
        (addf (sqrt (shapeCast ⟨2, ![a, 1]⟩ (multiReduction .add [1] ⟨1, ![a]⟩ (mulf x x) 0x00000000#32 hR hφ hacc) hC))
          (broadcast ⟨2, ![a, 1]⟩ (Scalar.ofBits (F := Ideal) .f32 0x322BCC77#32))) hB) (ix2 i k)
      = unitRow (fun k' => x (ix2 i k')) k := by
  show Ideal.div (x (ix2 i k)) (broadcastTo _ _ hB (ix2 i k)) = _
  rw [bcast_col_apply]
  show Ideal.div _ (Ideal.sqrt (shapeCast _ _ hC (ix2 i 0)) + eps) = _
  rw [cast_col_apply, rowSum2_apply]
  rfl

end Cert.RegionCorr

end
-- ==== Proof.ImageBlock.lean ====
/-
  What the image kernel's body computes from the block it loads: entry (p, d) of the stored [32, 1024] block is the sum over the
  36 regions of the rectified, row-normalized region (p, r) at feature d — `regionSumRow` of image p of the block.
-/
import proofs.«163725_j65214783422660_2_alg».proof.Proof.Gen.KernelIdeal.Skeleton
import proofs.«163725_j65214783422660_2_alg».proof.Proof.KernelOps

noncomputable section

open scoped BigOperators

namespace Cert.KernelIdeal.ImageBlock

open Cert.KernelIdeal Cert.KernelIdeal.Gen Cert.RegionCorr
open Idealize.ShloMosaic Idealize.ShloMosaic.ValueIdx

theorem k0_pay1_apply (x0 : Vec Ideal S32x36x1024 .f32) (p : Fin 32) (d : Fin 1024) :
    k0_pay1 (F := Ideal) x0 (ix2 p d) = regionSumRow (fun r k => x0 (ix3 p r k)) d := by
  unfold k0_pay1
  refine (midSum3_apply _ _ _ _ _ p d).trans ?_
  refine Finset.sum_congr rfl fun r _ => ?_
  refine (unit3_apply _ _ _ _ _ _ p r d).trans ?_
  rfl

end Cert.KernelIdeal.ImageBlock

end
-- ==== Proof.ImageArray.lean ====
/-
  The image region's output array: grid point t loads images 32t … 32t+31 and writes rows 32t … 32t+31 of the [128, 1024]
  array, so the four blocks tile it and the array ends holding, at (i, d), `regionSumRow` of image i at feature d — whatever
  the contents `V` the region is entered with.
-/
import proofs.«163725_j65214783422660_2_alg».proof.Proof.Gen.KernelIdeal.Frame
import proofs.«163725_j65214783422660_2_alg».proof.Proof.ImageBlock
import Idealize.ShloMosaic.Lib.Pipeline.Value

noncomputable section

open scoped BigOperators

namespace Cert.KernelIdeal.ImageArray

open Cert.KernelIdeal Cert.KernelIdeal.Gen Cert.RegionCorr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The region-sum array of an images array. -/
def regionArr (A : S128x36x1024.Idx → EReal) : S128x1024.Idx → EReal :=
  fun i => regionSumRow (fun r k => A (ix3 (i 0 : Fin 128) r k)) (i 1 : Fin 1024)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: both windows move along the image axis with the point, and sit at 0 on the other axes. -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- An entry of the input block at point t is the images array's entry 32t rows further down. -/
theorem iblk_apply (c : Dev nD) (t : Fin cfg0.N) (x : S32x36x1024.Idx) (k : S128x36x1024.Idx)
    (hk0 : (k 0).val = 32 * t.val + (x 0).val) (hk1 : (k 1).val = (x 1).val) (hk2 : (k 2).val = (x 2).val) :
    (iblk0 V c 0 t : Vec Ideal S32x36x1024 .f32) x = (V c main_arg0 : S128x36x1024.Idx → EReal) k := by
  obtain ⟨e0, e1, e2, -, -⟩ := idx_facts t
  unfold iblk0
  rw [View.read_apply]
  show V c main_arg0 _ = V c main_arg0 _
  congr 1
  funext a
  apply Fin.ext
  match a with
  | ⟨0, _⟩ => show win0_0.index t 0 * 32 + 1 * (x 0).val = (k 0).val; rw [e0, hk0]; omega
  | ⟨1, _⟩ => show win0_0.index t 1 * 36 + 1 * (x 1).val = (k 1).val; rw [e1, hk1]; omega
  | ⟨2, _⟩ => show win0_0.index t 2 * 1024 + 1 * (x 2).val = (k 2).val; rw [e2, hk2]; omega

/-- An entry of what the body stores at point t, placed in the array: the region sum of the image it belongs to. -/
theorem block_entry (A : S128x36x1024.Idx → EReal) (x0 : Vec Ideal S32x36x1024 .f32) (n : Nat)
    (hx : ∀ (x : S32x36x1024.Idx) (k : S128x36x1024.Idx), (k 0).val = 32 * n + (x 0).val → (k 1).val = (x 1).val →
      (k 2).val = (x 2).val → x0 x = A k)
    (y : S32x1024.Idx) (i : S128x1024.Idx) (hi0 : (i 0).val = 32 * n + (y 0).val) (hi1 : (i 1).val = (y 1).val) :
    k0_pay1 (F := Ideal) x0 y = regionArr A i := by
  obtain ⟨p, d, rfl⟩ : ∃ (p : Fin 32) (d : Fin 1024), y = ix2 p d := ⟨y 0, y 1, eq_ix2 y⟩
  rw [ImageBlock.k0_pay1_apply]
  unfold regionArr
  have e1 : (i 1 : Fin 1024) = d := Fin.ext hi1
  rw [e1]
  refine congrArg (fun f => regionSumRow f d) (funext fun r => funext fun k => ?_)
  exact hx (ix3 p r k) (ix3 (i 0 : Fin 128) r k) hi0 rfl rfl

/-- What point t writes back is block t of the region-sum array. -/
theorem flushed_eq (c : Dev nD) (t : Fin cfg0.N) :
    (dat0 V c).flushed 1 t = ((cfg0.win 1).blk t).view.read (Elt Ideal) (regionArr (V c main_arg0)) := by
  obtain ⟨-, -, -, e3, e4⟩ := idx_facts t
  show (cfg0.win 1).cut (grid0.coords t) ((dat0 V c).after 1 t) = _
  rw [after0_1]
  unfold out0_1
  rw [View.canon_unit_zero hz2]
  simp only [View.ld_unit_zero (S := S32x36x1024) hz3]
  funext y
  show k0_pay1 (F := Ideal) (iblk0 V c 0 t) y = regionArr (V c main_arg0) (((cfg0.win 1).blk t).view.emb y)
  refine block_entry (V c main_arg0) (iblk0 V c 0 t) t.val (fun x k h0 h1 h2 => iblk_apply V c t x k h0 h1 h2) y _ ?_ ?_
  · show win0_1.index t 0 * 32 + 1 * (y 0).val = 32 * t.val + (y 0).val; rw [e3]; omega
  · show win0_1.index t 1 * 1024 + 1 * (y 1).val = (y 1).val; rw [e4]; omega

/-- Membership in point t's block, axis by axis. -/
theorem mem_blk (t : Fin cfg0.N) (i : S128x1024.Idx) :
    i ∈ ((cfg0.win 1).blk t).view.set ↔ ∀ a : Fin 2, win0_1.index t a * S32x1024.size a ≤ (i a).val ∧ (i a).val < win0_1.index t a * S32x1024.size a + S32x1024.size a := by
  show i ∈ ((View.whole main_v1).slice (win0_1.rect t)).set ↔ _
  rw [View.set_slice_whole, Rect.mem_set_unit]
  exact Iff.rfl

/-- Row i lies in the block of point i / 32. -/
theorem cover (i : S128x1024.Idx) : ∃ t : Fin cfg0.N, (cfg0.win 1).flush t = true ∧ i ∈ ((cfg0.win 1).blk t).view.set := by
  have hi0 : (i 0).val < 128 := (i 0).isLt
  have hi1 : (i 1).val < 1024 := (i 1).isLt
  have hN : cfg0.N = 4 := N_0
  let t : Fin cfg0.N := ⟨(i 0).val / 32, by rw [hN]; omega⟩
  have ht : t.val = (i 0).val / 32 := rfl
  obtain ⟨-, -, -, e3, e4⟩ := idx_facts t
  refine ⟨t, flush0_1 t, ?_⟩
  rw [mem_blk]
  intro a
  match a with
  | ⟨0, _⟩ => show win0_1.index t 0 * 32 ≤ (i 0).val ∧ (i 0).val < win0_1.index t 0 * 32 + 32; rw [e3, ht]; omega
  | ⟨1, _⟩ => show win0_1.index t 1 * 1024 ≤ (i 1).val ∧ (i 1).val < win0_1.index t 1 * 1024 + 1024; rw [e4]; omega

/-- THE ARRAY after the region: the region sums of the images array the region was entered with. -/
theorem final (c : Dev nD) : (dat0 V c).arrAt 1 cfg0.N = regionArr (V c main_arg0) :=
  (dat0 V c).arrAt_eq_of_cover 1 (regionArr (V c main_arg0)) (fun t _ => flushed_eq V c t) cover

end Cert.KernelIdeal.ImageArray

end
-- ==== Proof.CaptionBlock.lean ====
/-
  What the caption kernel's body computes from the three blocks it loads (32 captions' words x0, their lengths x1, all 128 images'
  region sums x2): entry (p, q) of the stored [32, 128] block is `pairK` of image q's region sum, caption p's words and length.
  The pieces: the word mask; the masked sums of raw and of normalized words; the caption's mean vector normalized; the image's
  mean vector; the two matrix products against the transposed image-side operands as sums over the 1024 features.
-/
import proofs.«163725_j65214783422660_2_alg».proof.Proof.Gen.KernelIdeal.Skeleton
import proofs.«163725_j65214783422660_2_alg».proof.Proof.KernelOps
import Idealize.ShloMosaic.Lib.ValueLayout
import Idealize.ShloMosaic.Lib.Pipeline.Value

noncomputable section

open scoped BigOperators

namespace Cert.KernelIdeal.CaptionBlock

open Cert.KernelIdeal Cert.KernelIdeal.Gen Cert.RegionCorr
open Idealize.ShloMosaic Idealize.ShloMosaic.ValueIdx Idealize.ShloMosaic.Keepdims

/-- The one matrix-product shape of the body: [32, 1024] × [1024, 128], contracting the feature axis. -/
abbrev DD : DotDims S32x1024 S1024x128 S32x128 := dot_S32x1024_S1024x128_S32x128_1_0_0_1_n_n

theorem lhs_0 (i : S32x128.Idx) (q : DD.contr.Idx) : (DD.lhsIdx i q 0).val = (i 0).val := by
  unfold DotDims.lhsIdx
  rw [dif_neg (show ¬(0 : Fin S32x1024.rank) ∈ DD.lhsBatch by decide), dif_pos (show (0 : Fin S32x1024.rank) ∈ DD.lhsNonContracting by decide)]
  rfl
theorem lhs_1 (i : S32x128.Idx) (q : DD.contr.Idx) : (DD.lhsIdx i q 1).val = (q ⟨0, by decide⟩).val :=
  DD.lhsIdx_val_of_single rfl i q
theorem rhs_0 (i : S32x128.Idx) (q : DD.contr.Idx) : (DD.rhsIdx i q 0).val = (q ⟨0, by decide⟩).val :=
  DD.rhsIdx_val_of_single rfl i q
theorem rhs_1 (i : S32x128.Idx) (q : DD.contr.Idx) : (DD.rhsIdx i q 1).val = (i 1).val := by
  unfold DotDims.rhsIdx
  rw [dif_neg (show ¬(1 : Fin S1024x128.rank) ∈ DD.rhsBatch by decide), dif_pos (show (1 : Fin S1024x128.rank) ∈ DD.rhsNonContracting by decide)]
  rfl

/-- The product into a zero accumulator, at (p, q): the sum over the features of row p times column q. -/
theorem matmul_at {φ₁ φ₂ : FTy} (l : FVec Ideal S32x1024 φ₁) (r : FVec Ideal S1024x128 φ₂) (p : Fin 32) (q : Fin 128) :
    matmul DD none l r (constant S32x128 .f32 0x00000000#32) (ix2 p q) = ∑ k : Fin 1024, l (ix2 p k) * r (ix2 k q) := by
  refine (Ideal.matmul_constant_zero_apply DD none l r (ix2 p q)).trans ?_
  rw [← Equiv.sum_comp (contrEquiv1 DD 1024 rfl rfl).symm]
  refine Finset.sum_congr rfl fun k _ => ?_
  have hk := contrEquiv1_symm_val DD 1024 rfl rfl k
  have el : DD.lhsIdx (ix2 p q) ((contrEquiv1 DD 1024 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 1024 rfl rfl).symm k) = ix2 k q := funext fun a => Fin.ext (by
    match a with
    | ⟨0, _⟩ => exact (rhs_0 _ _).trans hk
    | ⟨1, _⟩ => exact rhs_1 _ _)
  rw [el, er]

/-- The mask vector at (p, w, 0): 1 when word w lies before caption p's length, else 0. -/
theorem mask_apply (x1 : Vec Ideal S32x1 .i32) (p : Fin 32) (w : Fin 50) (z : Fin 1) :
    k1_pay3 (F := Ideal) x1 (ix3 p w z) = maskAt (x1 (ix2 p 0)) w := by
  unfold k1_pay3 k1_pay2
  refine (cast_col3_apply _ _ p w z).trans ?_
  show FloatOps.sitofp (F := Ideal) .f32 ((IntOp.cmpi .slt (iota .tc S32x50 32 [1] iota_S32x50_d1_w32 (ix2 p w))
    (broadcastTo S32x50 (shapeCast S32x1 x1 shapeCasts_S32x1_S32x1) broadcasts_S32x1_S32x50 (ix2 p w))).setWidth 32) = _
  rw [iota_single_apply, bcast_col_apply, shapeCast_self]
  exact toInt_setWidth_bit _

/-- The lengths as numbers, at (p, 0). -/
theorem len_apply (x1 : Vec Ideal S32x1 .i32) (p : Fin 32) (z : Fin 1) :
    k1_pay5 (F := Ideal) x1 (ix2 p z) = lenf (x1 (ix2 p z)) := by
  unfold k1_pay5 k1_pay2
  rw [shapeCast_self]
  rfl

/-- The masked sum of normalized words. -/
theorem wordSum_apply (x0 : Vec Ideal S32x50x1024 .f32) (x1 : Vec Ideal S32x1 .i32) (p : Fin 32) (d : Fin 1024) :
    k1_pay4 (F := Ideal) x0 x1 (ix2 p d) = wordSumRow (fun w k => x0 (ix3 p w k)) (x1 (ix2 p 0)) d := by
  unfold k1_pay4
  refine (midSum3_apply _ _ _ _ _ p d).trans ?_
  refine Finset.sum_congr rfl fun w _ => ?_
  refine (congrArg₂ (fun a b : EReal => a * b) ((unit3_apply _ _ _ _ _ _ p w d).trans rfl)
    ((bcast_col3_apply _ _ p w d).trans (mask_apply x1 p w 0))).trans ?_
  rfl

/-- The masked sum of raw words, for any witnesses of the shape facts. -/
theorem rawSum_at (x0 : Vec Ideal S32x50x1024 .f32) (x1 : Vec Ideal S32x1 .i32)
    (hB : S32x50x1.Broadcasts S32x50x1024) (h : S32x50x1024.Reduces [1] S32x1024) (hφ : FKind.Formats .f32)
    (hacc : (0x00000000#32 : BitVec 32) = FKind.add.neutral .f32 hφ) (p : Fin 32) (k : Fin 1024) :
    multiReduction .add [1] S32x1024 (mulf x0 (broadcastTo S32x50x1024 (k1_pay3 (F := Ideal) x1) hB)) 0x00000000#32 h hφ hacc (ix2 p k)
      = rawSumRow (fun w k => x0 (ix3 p w k)) (x1 (ix2 p 0)) k := by
  refine (midSum3_apply _ _ _ _ _ p k).trans ?_
  refine Finset.sum_congr rfl fun w _ => ?_
  show x0 (ix3 p w k) * broadcastTo S32x50x1024 (k1_pay3 (F := Ideal) x1) hB (ix3 p w k) = _
  rw [bcast_col3_apply, mask_apply]

/-- The caption's mean vector, normalized. -/
theorem capUnit_apply (x0 : Vec Ideal S32x50x1024 .f32) (x1 : Vec Ideal S32x1 .i32) (p : Fin 32) (d : Fin 1024) :
    k1_pay6 (F := Ideal) x0 x1 (ix2 p d) = unitRow (capVecRow (fun w k => x0 (ix3 p w k)) (x1 (ix2 p 0))) d := by
  unfold k1_pay6
  refine (unit2_apply _ _ _ _ _ _ p d).trans ?_
  refine congrArg (fun f => unitRow f d) (funext fun k => ?_)
  refine (congrArg₂ Ideal.div (rawSum_at x0 x1 _ _ _ _ p k)
    ((bcast_col_apply _ _ p k).trans (len_apply x1 p 0))).trans ?_
  rfl

theorem pay7_eq (x2 : Vec Ideal S128x1024 .f32) : k1_pay7 (F := Ideal) x2 = x2 := by
  unfold k1_pay7
  exact shapeCast_self _ _

/-- The image's mean vector. -/
theorem imgVec_apply (x2 : Vec Ideal S128x1024 .f32) (q : Fin 128) (d : Fin 1024) :
    k1_pay8 (F := Ideal) x2 (ix2 q d) = imgVecRow (fun k => x2 (ix2 q k)) d := by
  unfold k1_pay8
  rw [pay7_eq]
  rfl

/-- The stored value from the five intermediate vectors, at (p, q). -/
theorem pay1_apply (v27 : FVec Ideal S32x1024 .f32) (v28 : FVec Ideal S32x1 .f32) (v38 : FVec Ideal S32x1024 .f32)
    (v40 v42 : FVec Ideal S128x1024 .f32) (p : Fin 32) (q : Fin 128) :
    k1_pay1 (F := Ideal) v27 v28 v38 v40 v42 (ix2 p q)
      = Ideal.div ((∑ d : Fin 1024, v38 (ix2 p d) * unitRow (fun k => v42 (ix2 q k)) d)
          + Ideal.div (∑ d : Fin 1024, v27 (ix2 p d) * v40 (ix2 q d)) (c36 * v28 (ix2 p 0))) c2 := by
  unfold k1_pay1
  refine congrArg (fun s => Ideal.div s c2) (congrArg₂ (fun a b : EReal => a + b) ?_ ?_)
  · refine (matmul_at _ _ p q).trans (Finset.sum_congr rfl fun k _ => ?_)
    refine congrArg (fun b : EReal => v38 (ix2 p k) * b) ?_
    refine (transpose_ix2_apply _ _ k q).trans ?_
    exact unit2_apply _ _ _ _ _ _ q k
  · refine congrArg₂ Ideal.div ?_ ?_
    · refine (matmul_at _ _ p q).trans (Finset.sum_congr rfl fun k _ => ?_)
      exact congrArg (fun b : EReal => v27 (ix2 p k) * b) (transpose_ix2_apply _ _ k q)
    · exact bcast_col_apply _ _ p q

/-- THE BLOCK: entry (p, q) from the three loaded blocks. -/
theorem block_apply (x0 : Vec Ideal S32x50x1024 .f32) (x1 : Vec Ideal S32x1 .i32) (x2 : Vec Ideal S128x1024 .f32)
    (p : Fin 32) (q : Fin 128) :
    k1_pay1 (F := Ideal) (k1_pay4 x0 x1) (k1_pay5 x1) (k1_pay6 x0 x1) (k1_pay7 x2) (k1_pay8 x2) (ix2 p q)
      = pairK (fun d => x2 (ix2 q d)) (fun w k => x0 (ix3 p w k)) (x1 (ix2 p 0)) := by
  rw [pay1_apply, pay7_eq, len_apply]
  simp only [wordSum_apply, capUnit_apply, imgVec_apply]
  rfl

end Cert.KernelIdeal.CaptionBlock

end
-- ==== Proof.CaptionArray.lean ====
/-
  The caption region's output array: grid point t loads captions 32t … 32t+31 (words and lengths) and ALL the images' region sums,
  and writes rows 32t … 32t+31 of the [640, 128] array, so the twenty blocks tile it and the array ends holding, at (c, i),
  `pairK` of image i's region sum, caption c's words and caption c's length — for whatever contents `V` the region is entered with.
-/
import proofs.«163725_j65214783422660_2_alg».proof.Proof.Gen.KernelIdeal.Frame
import proofs.«163725_j65214783422660_2_alg».proof.Proof.CaptionBlock
import Idealize.ShloMosaic.Lib.Pipeline.Value

noncomputable section

open scoped BigOperators

namespace Cert.KernelIdeal.CaptionArray

open Cert.KernelIdeal Cert.KernelIdeal.Gen Cert.RegionCorr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The [640, 128] array of entries from a captions array, a lengths column and a region-sum array. -/
def pairArr (Bc : S640x50x1024.Idx → EReal) (L : S640x1.Idx → BitVec 32) (Rg : S128x1024.Idx → EReal) : S640x128.Idx → EReal :=
  fun i => pairK (fun d => Rg (ix2 (i 1 : Fin 128) d)) (fun w k => Bc (ix3 (i 0 : Fin 640) w k)) (L (ix2 (i 0 : Fin 640) (0 : Fin 1)))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the words, lengths and output windows move along the caption axis with the point; the
    region-sum window stays at block (0, 0). -/
theorem idx_facts : ∀ t : Fin cfg1.N, win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem words_apply (c : Dev nD) (t : Fin cfg1.N) (x : S32x50x1024.Idx) (k : S640x50x1024.Idx)
    (hk0 : (k 0).val = 32 * t.val + (x 0).val) (hk1 : (k 1).val = (x 1).val) (hk2 : (k 2).val = (x 2).val) :
    (iblk1 V c 0 t : Vec Ideal S32x50x1024 .f32) x = (V c main_arg1 : S640x50x1024.Idx → EReal) k := by
  obtain ⟨e0, e1, e2, -⟩ := idx_facts t
  unfold iblk1
  rw [View.read_apply]
  show V c main_arg1 _ = V c main_arg1 _
  congr 1
  funext a
  apply Fin.ext
  match a with
  | ⟨0, _⟩ => show win1_0.index t 0 * 32 + 1 * (x 0).val = (k 0).val; rw [e0, hk0]; omega
  | ⟨1, _⟩ => show win1_0.index t 1 * 50 + 1 * (x 1).val = (k 1).val; rw [e1, hk1]; omega
  | ⟨2, _⟩ => show win1_0.index t 2 * 1024 + 1 * (x 2).val = (k 2).val; rw [e2, hk2]; omega

theorem lens_apply (c : Dev nD) (t : Fin cfg1.N) (x : S32x1.Idx) (k : S640x1.Idx)
    (hk0 : (k 0).val = 32 * t.val + (x 0).val) (hk1 : (k 1).val = (x 1).val) :
    (iblk1 V c 1 t : Vec Ideal S32x1 .i32) x = (V c main_v0 : S640x1.Idx → BitVec 32) k := by
  obtain ⟨-, -, -, e3, e4, -⟩ := idx_facts t
  unfold iblk1
  rw [View.read_apply]
  show V c main_v0 _ = V c main_v0 _
  congr 1
  funext a
  apply Fin.ext
  match a with
  | ⟨0, _⟩ => show win1_1.index t 0 * 32 + 1 * (x 0).val = (k 0).val; rw [e3, hk0]; omega
  | ⟨1, _⟩ => show win1_1.index t 1 * 1 + 1 * (x 1).val = (k 1).val; rw [e4, hk1]; omega

theorem sums_eq (c : Dev nD) (t : Fin cfg1.N) :
    (iblk1 V c 2 t : Vec Ideal S128x1024 .f32) = (V c main_v1 : S128x1024.Idx → EReal) := by
  obtain ⟨-, -, -, -, -, e5, e6, -⟩ := idx_facts t
  funext x
  unfold iblk1
  rw [View.read_apply]
  show V c main_v1 _ = V c main_v1 _
  congr 1
  funext a
  apply Fin.ext
  match a with
  | ⟨0, _⟩ => show win1_2.index t 0 * 128 + 1 * (x 0).val = (x 0).val; rw [e5]; omega
  | ⟨1, _⟩ => show win1_2.index t 1 * 1024 + 1 * (x 1).val = (x 1).val; rw [e6]; omega

/-- An entry of what the body stores at point n, placed in the array. -/
theorem block_entry (Bc : S640x50x1024.Idx → EReal) (L : S640x1.Idx → BitVec 32)
    (x0 : Vec Ideal S32x50x1024 .f32) (x1 : Vec Ideal S32x1 .i32) (Rg : Vec Ideal S128x1024 .f32) (n : Nat)
    (h0 : ∀ (x : S32x50x1024.Idx) (k : S640x50x1024.Idx), (k 0).val = 32 * n + (x 0).val → (k 1).val = (x 1).val →
      (k 2).val = (x 2).val → x0 x = Bc k)
    (h1 : ∀ (x : S32x1.Idx) (k : S640x1.Idx), (k 0).val = 32 * n + (x 0).val → (k 1).val = (x 1).val → x1 x = L k)
    (y : S32x128.Idx) (i : S640x128.Idx) (hi0 : (i 0).val = 32 * n + (y 0).val) (hi1 : (i 1).val = (y 1).val) :
    k1_pay1 (F := Ideal) (k1_pay4 x0 x1) (k1_pay5 x1) (k1_pay6 x0 x1) (k1_pay7 Rg) (k1_pay8 Rg) y = pairArr Bc L Rg i := by
  obtain ⟨p, q, rfl⟩ : ∃ (p : Fin 32) (q : Fin 128), y = ix2 p q := ⟨y 0, y 1, eq_ix2 y⟩
  rw [CaptionBlock.block_apply]
  unfold pairArr
  have e1 : (i 1 : Fin 128) = q := Fin.ext hi1
  rw [e1]
  refine congrArg₂ (fun (B : Fin 50 → Fin 1024 → EReal) (l : BitVec 32) => pairK (fun d => Rg (ix2 q d)) B l)
    (funext fun w => funext fun k => ?_) ?_
  · exact h0 (ix3 p w k) (ix3 (i 0 : Fin 640) w k) hi0 rfl rfl
  · exact h1 (ix2 p 0) (ix2 (i 0 : Fin 640) (0 : Fin 1)) hi0 rfl

/-- What point t writes back is block t of the array of entries. -/
theorem flushed_eq (c : Dev nD) (t : Fin cfg1.N) :
    (dat1 V c).flushed 3 t
      = ((cfg1.win 3).blk t).view.read (Elt Ideal) (pairArr (V c main_arg1) (V c main_v0) (V c main_v1)) := by
  obtain ⟨-, -, -, -, -, -, -, e7, e8⟩ := idx_facts t
  show (cfg1.win 3).cut (grid1.coords t) ((dat1 V c).after 3 t) = _
  rw [after1_3]
  unfold out1_3
  rw [View.canon_unit_zero hz2]
  simp only [View.ld_unit_zero (S := S32x50x1024) hz3, View.ld_unit_zero (S := S32x1) hz2, View.ld_unit_zero (S := S128x1024) hz2]
  rw [sums_eq V c t]
  funext y
  show k1_pay1 (F := Ideal) (k1_pay4 (iblk1 V c 0 t) (iblk1 V c 1 t)) (k1_pay5 (iblk1 V c 1 t)) (k1_pay6 (iblk1 V c 0 t) (iblk1 V c 1 t))
      (k1_pay7 (V c main_v1)) (k1_pay8 (V c main_v1)) y
    = pairArr (V c main_arg1) (V c main_v0) (V c main_v1) (((cfg1.win 3).blk t).view.emb y)
  refine block_entry (V c main_arg1) (V c main_v0) (iblk1 V c 0 t) (iblk1 V c 1 t) (V c main_v1) t.val
    (fun x k h0 h1 h2 => words_apply V c t x k h0 h1 h2) (fun x k h0 h1 => lens_apply V c t x k h0 h1) y _ ?_ ?_
  · show win1_3.index t 0 * 32 + 1 * (y 0).val = 32 * t.val + (y 0).val; rw [e7]; omega
  · show win1_3.index t 1 * 128 + 1 * (y 1).val = (y 1).val; rw [e8]; omega

theorem mem_blk (t : Fin cfg1.N) (i : S640x128.Idx) :
    i ∈ ((cfg1.win 3).blk t).view.set ↔ ∀ a : Fin 2, win1_3.index t a * S32x128.size a ≤ (i a).val ∧ (i a).val < win1_3.index t a * S32x128.size a + S32x128.size a := by
  show i ∈ ((View.whole main_v2).slice (win1_3.rect t)).set ↔ _
  rw [View.set_slice_whole, Rect.mem_set_unit]
  exact Iff.rfl

/-- Row c lies in the block of point c / 32. -/
theorem cover (i : S640x128.Idx) : ∃ t : Fin cfg1.N, (cfg1.win 3).flush t = true ∧ i ∈ ((cfg1.win 3).blk t).view.set := by
  have hi0 : (i 0).val < 640 := (i 0).isLt
  have hi1 : (i 1).val < 128 := (i 1).isLt
  have hN : cfg1.N = 20 := N_1
  let t : Fin cfg1.N := ⟨(i 0).val / 32, by rw [hN]; omega⟩
  have ht : t.val = (i 0).val / 32 := rfl
  obtain ⟨-, -, -, -, -, -, -, e7, e8⟩ := idx_facts t
  refine ⟨t, flush1_3 t, ?_⟩
  rw [mem_blk]
  intro a
  match a with
  | ⟨0, _⟩ => show win1_3.index t 0 * 32 ≤ (i 0).val ∧ (i 0).val < win1_3.index t 0 * 32 + 32; rw [e7, ht]; omega
  | ⟨1, _⟩ => show win1_3.index t 1 * 128 ≤ (i 1).val ∧ (i 1).val < win1_3.index t 1 * 128 + 128; rw [e8]; omega

/-- THE ARRAY after the region. -/
theorem final (c : Dev nD) : (dat1 V c).arrAt 3 cfg1.N = pairArr (V c main_arg1) (V c main_v0) (V c main_v1) :=
  (dat1 V c).arrAt_eq_of_cover 3 (pairArr (V c main_arg1) (V c main_v0) (V c main_v1)) (fun t _ => flushed_eq V c t) cover

end Cert.KernelIdeal.CaptionArray

end
-- ==== Proof.KernelValue.lean ====
/-
  The idealized kernel program's result, entry by entry. The contents at the four boundaries of @main: after the reshape the
  lengths column is the lengths vector viewed [640, 1]; the image region leaves the region-sum array of the images in its
  output; the caption region, entered with the captions, that column and that array, leaves the [640, 128] array of entries; the
  final transpose reads entry (i, c) at (c, i). So the result at (i, c) is `pairK` of image i's region sum, caption c's words and
  caption c's length.
-/
import proofs.«163725_j65214783422660_2_alg».proof.Proof.Gen.KernelIdeal.Frame
import proofs.«163725_j65214783422660_2_alg».proof.Proof.ImageArray
import proofs.«163725_j65214783422660_2_alg».proof.Proof.CaptionArray
import Idealize.ShloMosaic.Lib.StableHlo.Run
import Idealize.ShloMosaic.Lib.ValueLayout

noncomputable section

open scoped BigOperators

namespace Cert.KernelIdeal.KValue

open Cert.KernelIdeal Cert.KernelIdeal.Gen Cert.RegionCorr
open Idealize.ShloMosaic Idealize.ShloMosaic.TcCoe Idealize.SL.Sem Idealize.ShloMosaic.ValueIdx Idealize.ShloMosaic.Keepdims
open Idealize.ShloMosaic.StableHlo

variable (m : (ℓ : Loc nD τ sig) → Buf (Elt Ideal) ℓ) (ρ : Dev nD → PrngReg)

/-! ## After the reshape -/

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_v0 (c : Dev nD) :
    W1 m ρ c (Proc.devRef .tc main_v0) = shapeCast S640x1 (m ((c : Thread nD τ).loc main_arg2)) Facts₀.shapeCasts_S640_S640x1 := by
  show StableHlo.after hostOps0 (W0 m ρ c) (Proc.devRef .tc main_v0) = _
  after_results
  rfl

/-! ## After the image region -/

theorem V2_arg1 (c : Dev nD) : V2 m ρ c main_arg1 = m ((c : Thread nD τ).loc main_arg1) :=
  (W2_of_ne m ρ c main_arg1 (by decide)).trans (W1_arg1 m ρ c)

theorem V2_v0 (c : Dev nD) :
    V2 m ρ c main_v0 = shapeCast S640x1 (m ((c : Thread nD τ).loc main_arg2)) Facts₀.shapeCasts_S640_S640x1 :=
  (W2_of_ne m ρ c main_v0 (by decide)).trans (W1_v0 m ρ c)

theorem V2_v1 (c : Dev nD) : V2 m ρ c main_v1 = ImageArray.regionArr (m ((c : Thread nD τ).loc main_arg0)) :=
  (W2_arr m ρ c 1).trans ((ImageArray.final (V1 m ρ) c).trans (congrArg ImageArray.regionArr (W1_arg0 m ρ c)))

/-! ## After the caption region -/

theorem W3_v2 (c : Dev nD) :
    W3 m ρ c (Proc.devRef .tc main_v2)
      = CaptionArray.pairArr (m ((c : Thread nD τ).loc main_arg1))
          (shapeCast S640x1 (m ((c : Thread nD τ).loc main_arg2)) Facts₀.shapeCasts_S640_S640x1)
          (ImageArray.regionArr (m ((c : Thread nD τ).loc main_arg0))) := by
  refine (W3_arr m ρ c 3).trans ((CaptionArray.final (V2 m ρ) c).trans ?_)
  rw [V2_arg1, V2_v0, V2_v1]

/-! ## After the transpose -/

theorem W4_v3 (c : Dev nD) :
    W4 m ρ c (Proc.devRef .tc main_v3)
      = transpose S128x640 [1, 0] (W3 m ρ c (Proc.devRef .tc main_v2)) Facts₀.transposes_S640x128_S128x640_1_0 := by
  show StableHlo.after hostOps2 (W3 m ρ c) (Proc.devRef .tc main_v3) = _
  after_results

/-- THE RESULT, entry (i, c). -/
theorem result_apply (c : Dev nD) (i : Fin 128) (cc : Fin 640) :
    (W4 m ρ c (Proc.devRef .tc main_v3) : S128x640.Idx → EReal) (ix2 i cc)
      = pairK (regionSumRow fun r d => (m ((c : Thread nD τ).loc main_arg0) : S128x36x1024.Idx → EReal) (ix3 i r d))
          (fun w d => (m ((c : Thread nD τ).loc main_arg1) : S640x50x1024.Idx → EReal) (ix3 cc w d))
          ((m ((c : Thread nD τ).loc main_arg2) : S640.Idx → BitVec 32) (ix1 cc)) := by
  rw [W4_v3, transpose_ix2_apply, W3_v2]
  unfold CaptionArray.pairArr
  show pairK (fun d => ImageArray.regionArr _ (ix2 i d)) (fun w k => _) (shapeCast S640x1 _ _ (ix2 cc (0 : Fin 1))) = _
  rw [cast_col_apply]
  rfl

end Cert.KernelIdeal.KValue

end
-- ==== Proof.RefTerm.lean ====
/-
  The reference's host program as one pure term of its three arguments: each operation applied to the values of the
  operations before it, in program order (the two leaky-rectifier calls and their selects written in place).
-/
import proofs.«163725_j65214783422660_2_alg».proof.ReferenceIdeal
import proofs.«163725_j65214783422660_2_alg».proof.Proof.Gen.ReferenceIdeal

noncomputable section

namespace Cert.ReferenceIdeal.Term

open Cert.ReferenceIdeal Idealize.ShloMosaic
open Cert.ReferenceIdeal.Facts₀

variable {F : FTy → Type} [FloatOps F]

set_option maxRecDepth 4096 in
/-- The result array of the reference as a function of the argument arrays. -/
def refTerm (main_arg0 : (⟨S128x36x1024, .f32⟩ : BufTy).Contents (Elt F)) (main_arg1 : (⟨S640x50x1024, .f32⟩ : BufTy).Contents (Elt F)) (main_arg2 : (⟨S640, .i32⟩ : BufTy).Contents (Elt F)) :
    (⟨S128x640, .f32⟩ : BufTy).Contents (Elt F) :=
  have main_v0 : (⟨S50, .i32⟩ : BufTy).Contents (Elt F) := (iotaInDim S50 32 0)
  have main_v1 : (⟨S1x50, .i32⟩ : BufTy).Contents (Elt F) := (broadcastInDim S1x50 ![1] bcast_S50_S1x50_1 : (⟨S50, .i32⟩ : BufTy).Contents (Elt F) → (⟨S1x50, .i32⟩ : BufTy).Contents (Elt F)) main_v0
  have main_v2 : (⟨S640x1, .i32⟩ : BufTy).Contents (Elt F) := (broadcastInDim S640x1 ![0] bcast_S640_S640x1_0 : (⟨S640, .i32⟩ : BufTy).Contents (Elt F) → (⟨S640x1, .i32⟩ : BufTy).Contents (Elt F)) main_arg2
  have main_v3 : (⟨S640x50, .i32⟩ : BufTy).Contents (Elt F) := (broadcastInDim S640x50 ![0, 1] bcast_S1x50_S640x50_0_1 : (⟨S1x50, .i32⟩ : BufTy).Contents (Elt F) → (⟨S640x50, .i32⟩ : BufTy).Contents (Elt F)) main_v1
  have main_v4 : (⟨S640x50, .i32⟩ : BufTy).Contents (Elt F) := (broadcastInDim S640x50 ![0, 1] bcast_S640x1_S640x50_0_1 : (⟨S640x1, .i32⟩ : BufTy).Contents (Elt F) → (⟨S640x50, .i32⟩ : BufTy).Contents (Elt F)) main_v2
  have main_v5 : (⟨S640x50, .i1⟩ : BufTy).Contents (Elt F) := (cmpi .slt : (⟨S640x50, .i32⟩ : BufTy).Contents (Elt F) → (⟨S640x50, .i32⟩ : BufTy).Contents (Elt F) → (⟨S640x50, .i1⟩ : BufTy).Contents (Elt F)) main_v3 main_v4
  have main_v6 : (⟨S640, .f32⟩ : BufTy).Contents (Elt F) := (sitofp .f32 : (⟨S640, .i32⟩ : BufTy).Contents (Elt F) → (⟨S640, .f32⟩ : BufTy).Contents (Elt F)) main_arg2
  have main_cst : (⟨S_, .f32⟩ : BufTy).Contents (Elt F) := (constant S_ .f32 0x3DCCCCCD#32)
  have main_call0_cst : (⟨S_, .f32⟩ : BufTy).Contents (Elt F) := (constant S_ .f32 0x00000000#32)
  have main_call0_v0 : (⟨S128x36x1024, .f32⟩ : BufTy).Contents (Elt F) := (broadcastInDim S128x36x1024 ![] bcast_S_S128x36x1024) main_call0_cst
  have main_call0_v1 : (⟨S128x36x1024, .i1⟩ : BufTy).Contents (Elt F) := (cmpf .oge) main_arg0 main_call0_v0
  have main_call0_v2 : (⟨S_, .f32⟩ : BufTy).Contents (Elt F) := id main_cst
  have main_call0_v3 : (⟨S128x36x1024, .f32⟩ : BufTy).Contents (Elt F) := (broadcastInDim S128x36x1024 ![] bcast_S_S128x36x1024) main_call0_v2
  have main_call0_v4 : (⟨S128x36x1024, .f32⟩ : BufTy).Contents (Elt F) := mulf main_call0_v3 main_arg0
  have main_v7 : (⟨S128x36x1024, .f32⟩ : BufTy).Contents (Elt F) := select main_call0_v1 main_arg0 main_call0_v4
  have main_v8 : (⟨S128x36x1024, .f32⟩ : BufTy).Contents (Elt F) := (mulf : (⟨S128x36x1024, .f32⟩ : BufTy).Contents (Elt F) → (⟨S128x36x1024, .f32⟩ : BufTy).Contents (Elt F) → (⟨S128x36x1024, .f32⟩ : BufTy).Contents (Elt F)) main_v7 main_v7
  have main_cst_0 : (⟨S_, .f32⟩ : BufTy).Contents (Elt F) := (constant S_ .f32 0x00000000#32)
  have main_v9 : (⟨S128x36, .f32⟩ : BufTy).Contents (Elt F) := ((fun x v => Host.reduceAdd x v reducesTo_S128x36x1024_S128x36_d2 h_S_) : (⟨S128x36x1024, .f32⟩ : BufTy).Contents (Elt F) → (⟨S_, .f32⟩ : BufTy).Contents (Elt F) → (⟨S128x36, .f32⟩ : BufTy).Contents (Elt F)) main_v8 main_cst_0
  have main_v10 : (⟨S128x36x1, .f32⟩ : BufTy).Contents (Elt F) := (broadcastInDim S128x36x1 ![0, 1] bcast_S128x36_S128x36x1_0_1 : (⟨S128x36, .f32⟩ : BufTy).Contents (Elt F) → (⟨S128x36x1, .f32⟩ : BufTy).Contents (Elt F)) main_v9
  have main_v11 : (⟨S128x36x1, .f32⟩ : BufTy).Contents (Elt F) := (Host.sqrt : (⟨S128x36x1, .f32⟩ : BufTy).Contents (Elt F) → (⟨S128x36x1, .f32⟩ : BufTy).Contents (Elt F)) main_v10
  have main_cst_1 : (⟨S_, .f32⟩ : BufTy).Contents (Elt F) := (constant S_ .f32 0x322BCC77#32)
  have main_v12 : (⟨S128x36x1, .f32⟩ : BufTy).Contents (Elt F) := (broadcastInDim S128x36x1 ![] bcast_S_S128x36x1 : (⟨S_, .f32⟩ : BufTy).Contents (Elt F) → (⟨S128x36x1, .f32⟩ : BufTy).Contents (Elt F)) main_cst_1
  have main_v13 : (⟨S128x36x1, .f32⟩ : BufTy).Contents (Elt F) := (addf : (⟨S128x36x1, .f32⟩ : BufTy).Contents (Elt F) → (⟨S128x36x1, .f32⟩ : BufTy).Contents (Elt F) → (⟨S128x36x1, .f32⟩ : BufTy).Contents (Elt F)) main_v11 main_v12
  have main_v14 : (⟨S128x36x1024, .f32⟩ : BufTy).Contents (Elt F) := (broadcastInDim S128x36x1024 ![0, 1, 2] bcast_S128x36x1_S128x36x1024_0_1_2 : (⟨S128x36x1, .f32⟩ : BufTy).Contents (Elt F) → (⟨S128x36x1024, .f32⟩ : BufTy).Contents (Elt F)) main_v13
  have main_v15 : (⟨S128x36x1024, .f32⟩ : BufTy).Contents (Elt F) := (Host.divf : (⟨S128x36x1024, .f32⟩ : BufTy).Contents (Elt F) → (⟨S128x36x1024, .f32⟩ : BufTy).Contents (Elt F) → (⟨S128x36x1024, .f32⟩ : BufTy).Contents (Elt F)) main_v7 main_v14
  have main_cst_2 : (⟨S_, .f32⟩ : BufTy).Contents (Elt F) := (constant S_ .f32 0x00000000#32)
  have main_v16 : (⟨S128x1024, .f32⟩ : BufTy).Contents (Elt F) := ((fun x v => Host.reduceAdd x v reducesTo_S128x36x1024_S128x1024_d1 h_S_) : (⟨S128x36x1024, .f32⟩ : BufTy).Contents (Elt F) → (⟨S_, .f32⟩ : BufTy).Contents (Elt F) → (⟨S128x1024, .f32⟩ : BufTy).Contents (Elt F)) main_v15 main_cst_2
  have main_cst_3 : (⟨S_, .f32⟩ : BufTy).Contents (Elt F) := (constant S_ .f32 0x42100000#32)
  have main_v17 : (⟨S128x1024, .f32⟩ : BufTy).Contents (Elt F) := (broadcastInDim S128x1024 ![] bcast_S_S128x1024 : (⟨S_, .f32⟩ : BufTy).Contents (Elt F) → (⟨S128x1024, .f32⟩ : BufTy).Contents (Elt F)) main_cst_3
  have main_v18 : (⟨S128x1024, .f32⟩ : BufTy).Contents (Elt F) := (Host.divf : (⟨S128x1024, .f32⟩ : BufTy).Contents (Elt F) → (⟨S128x1024, .f32⟩ : BufTy).Contents (Elt F) → (⟨S128x1024, .f32⟩ : BufTy).Contents (Elt F)) main_v16 main_v17
  have main_v19 : (⟨S640x50x1, .i1⟩ : BufTy).Contents (Elt F) := (broadcastInDim S640x50x1 ![0, 1] bcast_S640x50_S640x50x1_0_1 : (⟨S640x50, .i1⟩ : BufTy).Contents (Elt F) → (⟨S640x50x1, .i1⟩ : BufTy).Contents (Elt F)) main_v5
  have main_v20 : (⟨S640x50x1, .f32⟩ : BufTy).Contents (Elt F) := (uitofp .f32 : (⟨S640x50x1, .i1⟩ : BufTy).Contents (Elt F) → (⟨S640x50x1, .f32⟩ : BufTy).Contents (Elt F)) main_v19
  have main_v21 : (⟨S640x50x1024, .f32⟩ : BufTy).Contents (Elt F) := (broadcastInDim S640x50x1024 ![0, 1, 2] bcast_S640x50x1_S640x50x1024_0_1_2 : (⟨S640x50x1, .f32⟩ : BufTy).Contents (Elt F) → (⟨S640x50x1024, .f32⟩ : BufTy).Contents (Elt F)) main_v20
  have main_v22 : (⟨S640x50x1024, .f32⟩ : BufTy).Contents (Elt F) := (mulf : (⟨S640x50x1024, .f32⟩ : BufTy).Contents (Elt F) → (⟨S640x50x1024, .f32⟩ : BufTy).Contents (Elt F) → (⟨S640x50x1024, .f32⟩ : BufTy).Contents (Elt F)) main_arg1 main_v21
  have main_cst_4 : (⟨S_, .f32⟩ : BufTy).Contents (Elt F) := (constant S_ .f32 0x00000000#32)
  have main_v23 : (⟨S640x1024, .f32⟩ : BufTy).Contents (Elt F) := ((fun x v => Host.reduceAdd x v reducesTo_S640x50x1024_S640x1024_d1 h_S_) : (⟨S640x50x1024, .f32⟩ : BufTy).Contents (Elt F) → (⟨S_, .f32⟩ : BufTy).Contents (Elt F) → (⟨S640x1024, .f32⟩ : BufTy).Contents (Elt F)) main_v22 main_cst_4
  have main_v24 : (⟨S640x1, .f32⟩ : BufTy).Contents (Elt F) := (broadcastInDim S640x1 ![0] bcast_S640_S640x1_0 : (⟨S640, .f32⟩ : BufTy).Contents (Elt F) → (⟨S640x1, .f32⟩ : BufTy).Contents (Elt F)) main_v6
  have main_v25 : (⟨S640x1024, .f32⟩ : BufTy).Contents (Elt F) := (broadcastInDim S640x1024 ![0, 1] bcast_S640x1_S640x1024_0_1 : (⟨S640x1, .f32⟩ : BufTy).Contents (Elt F) → (⟨S640x1024, .f32⟩ : BufTy).Contents (Elt F)) main_v24
  have main_v26 : (⟨S640x1024, .f32⟩ : BufTy).Contents (Elt F) := (Host.divf : (⟨S640x1024, .f32⟩ : BufTy).Contents (Elt F) → (⟨S640x1024, .f32⟩ : BufTy).Contents (Elt F) → (⟨S640x1024, .f32⟩ : BufTy).Contents (Elt F)) main_v23 main_v25
  have main_v27 : (⟨S128x1024, .f32⟩ : BufTy).Contents (Elt F) := (mulf : (⟨S128x1024, .f32⟩ : BufTy).Contents (Elt F) → (⟨S128x1024, .f32⟩ : BufTy).Contents (Elt F) → (⟨S128x1024, .f32⟩ : BufTy).Contents (Elt F)) main_v18 main_v18
  have main_cst_5 : (⟨S_, .f32⟩ : BufTy).Contents (Elt F) := (constant S_ .f32 0x00000000#32)
  have main_v28 : (⟨S128, .f32⟩ : BufTy).Contents (Elt F) := ((fun x v => Host.reduceAdd x v reducesTo_S128x1024_S128_d1 h_S_) : (⟨S128x1024, .f32⟩ : BufTy).Contents (Elt F) → (⟨S_, .f32⟩ : BufTy).Contents (Elt F) → (⟨S128, .f32⟩ : BufTy).Contents (Elt F)) main_v27 main_cst_5
  have main_v29 : (⟨S128x1, .f32⟩ : BufTy).Contents (Elt F) := (broadcastInDim S128x1 ![0] bcast_S128_S128x1_0 : (⟨S128, .f32⟩ : BufTy).Contents (Elt F) → (⟨S128x1, .f32⟩ : BufTy).Contents (Elt F)) main_v28
  have main_v30 : (⟨S128x1, .f32⟩ : BufTy).Contents (Elt F) := (Host.sqrt : (⟨S128x1, .f32⟩ : BufTy).Contents (Elt F) → (⟨S128x1, .f32⟩ : BufTy).Contents (Elt F)) main_v29
  have main_cst_6 : (⟨S_, .f32⟩ : BufTy).Contents (Elt F) := (constant S_ .f32 0x322BCC77#32)
  have main_v31 : (⟨S128x1, .f32⟩ : BufTy).Contents (Elt F) := (broadcastInDim S128x1 ![] bcast_S_S128x1 : (⟨S_, .f32⟩ : BufTy).Contents (Elt F) → (⟨S128x1, .f32⟩ : BufTy).Contents (Elt F)) main_cst_6
  have main_v32 : (⟨S128x1, .f32⟩ : BufTy).Contents (Elt F) := (addf : (⟨S128x1, .f32⟩ : BufTy).Contents (Elt F) → (⟨S128x1, .f32⟩ : BufTy).Contents (Elt F) → (⟨S128x1, .f32⟩ : BufTy).Contents (Elt F)) main_v30 main_v31
  have main_v33 : (⟨S128x1024, .f32⟩ : BufTy).Contents (Elt F) := (broadcastInDim S128x1024 ![0, 1] bcast_S128x1_S128x1024_0_1 : (⟨S128x1, .f32⟩ : BufTy).Contents (Elt F) → (⟨S128x1024, .f32⟩ : BufTy).Contents (Elt F)) main_v32
  have main_v34 : (⟨S128x1024, .f32⟩ : BufTy).Contents (Elt F) := (Host.divf : (⟨S128x1024, .f32⟩ : BufTy).Contents (Elt F) → (⟨S128x1024, .f32⟩ : BufTy).Contents (Elt F) → (⟨S128x1024, .f32⟩ : BufTy).Contents (Elt F)) main_v18 main_v33
  have main_v35 : (⟨S640x1024, .f32⟩ : BufTy).Contents (Elt F) := (mulf : (⟨S640x1024, .f32⟩ : BufTy).Contents (Elt F) → (⟨S640x1024, .f32⟩ : BufTy).Contents (Elt F) → (⟨S640x1024, .f32⟩ : BufTy).Contents (Elt F)) main_v26 main_v26
  have main_cst_7 : (⟨S_, .f32⟩ : BufTy).Contents (Elt F) := (constant S_ .f32 0x00000000#32)
  have main_v36 : (⟨S640, .f32⟩ : BufTy).Contents (Elt F) := ((fun x v => Host.reduceAdd x v reducesTo_S640x1024_S640_d1 h_S_) : (⟨S640x1024, .f32⟩ : BufTy).Contents (Elt F) → (⟨S_, .f32⟩ : BufTy).Contents (Elt F) → (⟨S640, .f32⟩ : BufTy).Contents (Elt F)) main_v35 main_cst_7
  have main_v37 : (⟨S640x1, .f32⟩ : BufTy).Contents (Elt F) := (broadcastInDim S640x1 ![0] bcast_S640_S640x1_0 : (⟨S640, .f32⟩ : BufTy).Contents (Elt F) → (⟨S640x1, .f32⟩ : BufTy).Contents (Elt F)) main_v36
  have main_v38 : (⟨S640x1, .f32⟩ : BufTy).Contents (Elt F) := (Host.sqrt : (⟨S640x1, .f32⟩ : BufTy).Contents (Elt F) → (⟨S640x1, .f32⟩ : BufTy).Contents (Elt F)) main_v37
  have main_cst_8 : (⟨S_, .f32⟩ : BufTy).Contents (Elt F) := (constant S_ .f32 0x322BCC77#32)
  have main_v39 : (⟨S640x1, .f32⟩ : BufTy).Contents (Elt F) := (broadcastInDim S640x1 ![] bcast_S_S640x1 : (⟨S_, .f32⟩ : BufTy).Contents (Elt F) → (⟨S640x1, .f32⟩ : BufTy).Contents (Elt F)) main_cst_8
  have main_v40 : (⟨S640x1, .f32⟩ : BufTy).Contents (Elt F) := (addf : (⟨S640x1, .f32⟩ : BufTy).Contents (Elt F) → (⟨S640x1, .f32⟩ : BufTy).Contents (Elt F) → (⟨S640x1, .f32⟩ : BufTy).Contents (Elt F)) main_v38 main_v39
  have main_v41 : (⟨S640x1024, .f32⟩ : BufTy).Contents (Elt F) := (broadcastInDim S640x1024 ![0, 1] bcast_S640x1_S640x1024_0_1 : (⟨S640x1, .f32⟩ : BufTy).Contents (Elt F) → (⟨S640x1024, .f32⟩ : BufTy).Contents (Elt F)) main_v40
  have main_v42 : (⟨S640x1024, .f32⟩ : BufTy).Contents (Elt F) := (Host.divf : (⟨S640x1024, .f32⟩ : BufTy).Contents (Elt F) → (⟨S640x1024, .f32⟩ : BufTy).Contents (Elt F) → (⟨S640x1024, .f32⟩ : BufTy).Contents (Elt F)) main_v26 main_v41
  have main_v43 : (⟨S1024x640, .f32⟩ : BufTy).Contents (Elt F) := ((transpose S1024x640 [1, 0] · transposes_S640x1024_S1024x640_1_0) : (⟨S640x1024, .f32⟩ : BufTy).Contents (Elt F) → (⟨S1024x640, .f32⟩ : BufTy).Contents (Elt F)) main_v42
  have main_v44 : (⟨S128x640, .f32⟩ : BufTy).Contents (Elt F) := ((fun l r => Host.dotGeneral dot_S128x1024_S1024x640_S128x640_1_0_0_1_n_n none l r) : (⟨S128x1024, .f32⟩ : BufTy).Contents (Elt F) → (⟨S1024x640, .f32⟩ : BufTy).Contents (Elt F) → (⟨S128x640, .f32⟩ : BufTy).Contents (Elt F)) main_v34 main_v43
  have main_cst_9 : (⟨S_, .f32⟩ : BufTy).Contents (Elt F) := (constant S_ .f32 0x3DCCCCCD#32)
  have main_call1_cst : (⟨S_, .f32⟩ : BufTy).Contents (Elt F) := (constant S_ .f32 0x00000000#32)
  have main_call1_v0 : (⟨S640x50x1024, .f32⟩ : BufTy).Contents (Elt F) := (broadcastInDim S640x50x1024 ![] bcast_S_S640x50x1024) main_call1_cst
  have main_call1_v1 : (⟨S640x50x1024, .i1⟩ : BufTy).Contents (Elt F) := (cmpf .oge) main_arg1 main_call1_v0
  have main_call1_v2 : (⟨S_, .f32⟩ : BufTy).Contents (Elt F) := id main_cst_9
  have main_call1_v3 : (⟨S640x50x1024, .f32⟩ : BufTy).Contents (Elt F) := (broadcastInDim S640x50x1024 ![] bcast_S_S640x50x1024) main_call1_v2
  have main_call1_v4 : (⟨S640x50x1024, .f32⟩ : BufTy).Contents (Elt F) := mulf main_call1_v3 main_arg1
  have main_v45 : (⟨S640x50x1024, .f32⟩ : BufTy).Contents (Elt F) := select main_call1_v1 main_arg1 main_call1_v4
  have main_v46 : (⟨S640x50x1024, .f32⟩ : BufTy).Contents (Elt F) := (mulf : (⟨S640x50x1024, .f32⟩ : BufTy).Contents (Elt F) → (⟨S640x50x1024, .f32⟩ : BufTy).Contents (Elt F) → (⟨S640x50x1024, .f32⟩ : BufTy).Contents (Elt F)) main_v45 main_v45
  have main_cst_10 : (⟨S_, .f32⟩ : BufTy).Contents (Elt F) := (constant S_ .f32 0x00000000#32)
  have main_v47 : (⟨S640x50, .f32⟩ : BufTy).Contents (Elt F) := ((fun x v => Host.reduceAdd x v reducesTo_S640x50x1024_S640x50_d2 h_S_) : (⟨S640x50x1024, .f32⟩ : BufTy).Contents (Elt F) → (⟨S_, .f32⟩ : BufTy).Contents (Elt F) → (⟨S640x50, .f32⟩ : BufTy).Contents (Elt F)) main_v46 main_cst_10
  have main_v48 : (⟨S640x50x1, .f32⟩ : BufTy).Contents (Elt F) := (broadcastInDim S640x50x1 ![0, 1] bcast_S640x50_S640x50x1_0_1 : (⟨S640x50, .f32⟩ : BufTy).Contents (Elt F) → (⟨S640x50x1, .f32⟩ : BufTy).Contents (Elt F)) main_v47
  have main_v49 : (⟨S640x50x1, .f32⟩ : BufTy).Contents (Elt F) := (Host.sqrt : (⟨S640x50x1, .f32⟩ : BufTy).Contents (Elt F) → (⟨S640x50x1, .f32⟩ : BufTy).Contents (Elt F)) main_v48
  have main_cst_11 : (⟨S_, .f32⟩ : BufTy).Contents (Elt F) := (constant S_ .f32 0x322BCC77#32)
  have main_v50 : (⟨S640x50x1, .f32⟩ : BufTy).Contents (Elt F) := (broadcastInDim S640x50x1 ![] bcast_S_S640x50x1 : (⟨S_, .f32⟩ : BufTy).Contents (Elt F) → (⟨S640x50x1, .f32⟩ : BufTy).Contents (Elt F)) main_cst_11
  have main_v51 : (⟨S640x50x1, .f32⟩ : BufTy).Contents (Elt F) := (addf : (⟨S640x50x1, .f32⟩ : BufTy).Contents (Elt F) → (⟨S640x50x1, .f32⟩ : BufTy).Contents (Elt F) → (⟨S640x50x1, .f32⟩ : BufTy).Contents (Elt F)) main_v49 main_v50
  have main_v52 : (⟨S640x50x1024, .f32⟩ : BufTy).Contents (Elt F) := (broadcastInDim S640x50x1024 ![0, 1, 2] bcast_S640x50x1_S640x50x1024_0_1_2 : (⟨S640x50x1, .f32⟩ : BufTy).Contents (Elt F) → (⟨S640x50x1024, .f32⟩ : BufTy).Contents (Elt F)) main_v51
  have main_v53 : (⟨S640x50x1024, .f32⟩ : BufTy).Contents (Elt F) := (Host.divf : (⟨S640x50x1024, .f32⟩ : BufTy).Contents (Elt F) → (⟨S640x50x1024, .f32⟩ : BufTy).Contents (Elt F) → (⟨S640x50x1024, .f32⟩ : BufTy).Contents (Elt F)) main_v45 main_v52
  have main_v54 : (⟨S640x50x1, .i1⟩ : BufTy).Contents (Elt F) := (broadcastInDim S640x50x1 ![0, 1] bcast_S640x50_S640x50x1_0_1 : (⟨S640x50, .i1⟩ : BufTy).Contents (Elt F) → (⟨S640x50x1, .i1⟩ : BufTy).Contents (Elt F)) main_v5
  have main_v55 : (⟨S640x50x1, .f32⟩ : BufTy).Contents (Elt F) := (uitofp .f32 : (⟨S640x50x1, .i1⟩ : BufTy).Contents (Elt F) → (⟨S640x50x1, .f32⟩ : BufTy).Contents (Elt F)) main_v54
  have main_v56 : (⟨S640x50x1024, .f32⟩ : BufTy).Contents (Elt F) := (broadcastInDim S640x50x1024 ![0, 1, 2] bcast_S640x50x1_S640x50x1024_0_1_2 : (⟨S640x50x1, .f32⟩ : BufTy).Contents (Elt F) → (⟨S640x50x1024, .f32⟩ : BufTy).Contents (Elt F)) main_v55
  have main_v57 : (⟨S640x50x1024, .f32⟩ : BufTy).Contents (Elt F) := (mulf : (⟨S640x50x1024, .f32⟩ : BufTy).Contents (Elt F) → (⟨S640x50x1024, .f32⟩ : BufTy).Contents (Elt F) → (⟨S640x50x1024, .f32⟩ : BufTy).Contents (Elt F)) main_v53 main_v56
  have main_cst_12 : (⟨S_, .f32⟩ : BufTy).Contents (Elt F) := (constant S_ .f32 0x00000000#32)
  have main_v58 : (⟨S640x1024, .f32⟩ : BufTy).Contents (Elt F) := ((fun x v => Host.reduceAdd x v reducesTo_S640x50x1024_S640x1024_d1 h_S_) : (⟨S640x50x1024, .f32⟩ : BufTy).Contents (Elt F) → (⟨S_, .f32⟩ : BufTy).Contents (Elt F) → (⟨S640x1024, .f32⟩ : BufTy).Contents (Elt F)) main_v57 main_cst_12
  have main_cst_13 : (⟨S_, .f32⟩ : BufTy).Contents (Elt F) := (constant S_ .f32 0x00000000#32)
  have main_v59 : (⟨S128x1024, .f32⟩ : BufTy).Contents (Elt F) := ((fun x v => Host.reduceAdd x v reducesTo_S128x36x1024_S128x1024_d1 h_S_) : (⟨S128x36x1024, .f32⟩ : BufTy).Contents (Elt F) → (⟨S_, .f32⟩ : BufTy).Contents (Elt F) → (⟨S128x1024, .f32⟩ : BufTy).Contents (Elt F)) main_v15 main_cst_13
  have main_v60 : (⟨S1024x640, .f32⟩ : BufTy).Contents (Elt F) := ((transpose S1024x640 [1, 0] · transposes_S640x1024_S1024x640_1_0) : (⟨S640x1024, .f32⟩ : BufTy).Contents (Elt F) → (⟨S1024x640, .f32⟩ : BufTy).Contents (Elt F)) main_v58
  have main_v61 : (⟨S128x640, .f32⟩ : BufTy).Contents (Elt F) := ((fun l r => Host.dotGeneral dot_S128x1024_S1024x640_S128x640_1_0_0_1_n_n none l r) : (⟨S128x1024, .f32⟩ : BufTy).Contents (Elt F) → (⟨S1024x640, .f32⟩ : BufTy).Contents (Elt F) → (⟨S128x640, .f32⟩ : BufTy).Contents (Elt F)) main_v59 main_v60
  have main_v62 : (⟨S1x640, .f32⟩ : BufTy).Contents (Elt F) := (broadcastInDim S1x640 ![1] bcast_S640_S1x640_1 : (⟨S640, .f32⟩ : BufTy).Contents (Elt F) → (⟨S1x640, .f32⟩ : BufTy).Contents (Elt F)) main_v6
  have main_cst_14 : (⟨S_, .f32⟩ : BufTy).Contents (Elt F) := (constant S_ .f32 0x42100000#32)
  have main_v63 : (⟨S1x640, .f32⟩ : BufTy).Contents (Elt F) := (broadcastInDim S1x640 ![] bcast_S_S1x640 : (⟨S_, .f32⟩ : BufTy).Contents (Elt F) → (⟨S1x640, .f32⟩ : BufTy).Contents (Elt F)) main_cst_14
  have main_v64 : (⟨S1x640, .f32⟩ : BufTy).Contents (Elt F) := (mulf : (⟨S1x640, .f32⟩ : BufTy).Contents (Elt F) → (⟨S1x640, .f32⟩ : BufTy).Contents (Elt F) → (⟨S1x640, .f32⟩ : BufTy).Contents (Elt F)) main_v63 main_v62
  have main_v65 : (⟨S128x640, .f32⟩ : BufTy).Contents (Elt F) := (broadcastInDim S128x640 ![0, 1] bcast_S1x640_S128x640_0_1 : (⟨S1x640, .f32⟩ : BufTy).Contents (Elt F) → (⟨S128x640, .f32⟩ : BufTy).Contents (Elt F)) main_v64
  have main_v66 : (⟨S128x640, .f32⟩ : BufTy).Contents (Elt F) := (Host.divf : (⟨S128x640, .f32⟩ : BufTy).Contents (Elt F) → (⟨S128x640, .f32⟩ : BufTy).Contents (Elt F) → (⟨S128x640, .f32⟩ : BufTy).Contents (Elt F)) main_v61 main_v65
  have main_v67 : (⟨S128x640, .f32⟩ : BufTy).Contents (Elt F) := (addf : (⟨S128x640, .f32⟩ : BufTy).Contents (Elt F) → (⟨S128x640, .f32⟩ : BufTy).Contents (Elt F) → (⟨S128x640, .f32⟩ : BufTy).Contents (Elt F)) main_v66 main_v44
  have main_cst_15 : (⟨S_, .f32⟩ : BufTy).Contents (Elt F) := (constant S_ .f32 0x40000000#32)
  have main_v68 : (⟨S128x640, .f32⟩ : BufTy).Contents (Elt F) := (broadcastInDim S128x640 ![] bcast_S_S128x640 : (⟨S_, .f32⟩ : BufTy).Contents (Elt F) → (⟨S128x640, .f32⟩ : BufTy).Contents (Elt F)) main_cst_15
  have main_v69 : (⟨S128x640, .f32⟩ : BufTy).Contents (Elt F) := (Host.divf : (⟨S128x640, .f32⟩ : BufTy).Contents (Elt F) → (⟨S128x640, .f32⟩ : BufTy).Contents (Elt F) → (⟨S128x640, .f32⟩ : BufTy).Contents (Elt F)) main_v67 main_v68
  main_v69

end Cert.ReferenceIdeal.Term

end
-- ==== Proof.RefRun.lean ====
/-
  The reference's host program run: its @main is a straight line of 99 host operations (the two leaky-rectifier calls
  written in place over their call records), so every execution ends with each buffer at the fold of those operations over
  the launch contents; read at the result buffer the fold is the term `refTerm` of the three arguments, and the
  arguments are written by no operation.
-/
import proofs.«163725_j65214783422660_2_alg».proof.ReferenceIdeal
import proofs.«163725_j65214783422660_2_alg».proof.Proof.Gen.ReferenceIdeal
import proofs.«163725_j65214783422660_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations, in order. -/
abbrev ops : List (HloOp τ sig (Elt F)) :=
  [
    nullary main_v0 (iotaInDim S50 32 0),
    unary main_v0 main_v1 (broadcastInDim S1x50 ![1] bcast_S50_S1x50_1 : (⟨S50, .i32⟩ : BufTy).Contents (Elt F) → (⟨S1x50, .i32⟩ : BufTy).Contents (Elt F)),
    unary main_arg2 main_v2 (broadcastInDim S640x1 ![0] bcast_S640_S640x1_0 : (⟨S640, .i32⟩ : BufTy).Contents (Elt F) → (⟨S640x1, .i32⟩ : BufTy).Contents (Elt F)),
    unary main_v1 main_v3 (broadcastInDim S640x50 ![0, 1] bcast_S1x50_S640x50_0_1 : (⟨S1x50, .i32⟩ : BufTy).Contents (Elt F) → (⟨S640x50, .i32⟩ : BufTy).Contents (Elt F)),
    unary main_v2 main_v4 (broadcastInDim S640x50 ![0, 1] bcast_S640x1_S640x50_0_1 : (⟨S640x1, .i32⟩ : BufTy).Contents (Elt F) → (⟨S640x50, .i32⟩ : BufTy).Contents (Elt F)),
    binary main_v3 main_v4 main_v5 (cmpi .slt : (⟨S640x50, .i32⟩ : BufTy).Contents (Elt F) → (⟨S640x50, .i32⟩ : BufTy).Contents (Elt F) → (⟨S640x50, .i1⟩ : BufTy).Contents (Elt F)),
    unary main_arg2 main_v6 (sitofp .f32 : (⟨S640, .i32⟩ : BufTy).Contents (Elt F) → (⟨S640, .f32⟩ : BufTy).Contents (Elt F)),
    nullary main_cst (constant S_ .f32 0x3DCCCCCD#32),
    TRef.nullary main_call0.cst (constant S_ .f32 0x00000000#32),
    TRef.unary main_call0.cst main_call0.v0 (broadcastInDim S128x36x1024 ![] bcast_S_S128x36x1024),
    TRef.binary (.of main_arg0) main_call0.v0 main_call0.v1 (cmpf .oge),
    TRef.unary (.of main_cst) main_call0.v2 id,
    TRef.unary main_call0.v2 main_call0.v3 (broadcastInDim S128x36x1024 ![] bcast_S_S128x36x1024),
    TRef.binary main_call0.v3 (.of main_arg0) main_call0.v4 mulf,
    TRef.ternary main_call0.v1 (.of main_arg0) main_call0.v4 main_call0.call0.v0 select,
    binary main_v7 main_v7 main_v8 (mulf : (⟨S128x36x1024, .f32⟩ : BufTy).Contents (Elt F) → (⟨S128x36x1024, .f32⟩ : BufTy).Contents (Elt F) → (⟨S128x36x1024, .f32⟩ : BufTy).Contents (Elt F)),
    nullary main_cst_0 (constant S_ .f32 0x00000000#32),
    binary main_v8 main_cst_0 main_v9 ((fun x v => Host.reduceAdd x v reducesTo_S128x36x1024_S128x36_d2 h_S_) : (⟨S128x36x1024, .f32⟩ : BufTy).Contents (Elt F) → (⟨S_, .f32⟩ : BufTy).Contents (Elt F) → (⟨S128x36, .f32⟩ : BufTy).Contents (Elt F)),
    unary main_v9 main_v10 (broadcastInDim S128x36x1 ![0, 1] bcast_S128x36_S128x36x1_0_1 : (⟨S128x36, .f32⟩ : BufTy).Contents (Elt F) → (⟨S128x36x1, .f32⟩ : BufTy).Contents (Elt F)),
    unary main_v10 main_v11 (Host.sqrt : (⟨S128x36x1, .f32⟩ : BufTy).Contents (Elt F) → (⟨S128x36x1, .f32⟩ : BufTy).Contents (Elt F)),
    nullary main_cst_1 (constant S_ .f32 0x322BCC77#32),
    unary main_cst_1 main_v12 (broadcastInDim S128x36x1 ![] bcast_S_S128x36x1 : (⟨S_, .f32⟩ : BufTy).Contents (Elt F) → (⟨S128x36x1, .f32⟩ : BufTy).Contents (Elt F)),
    binary main_v11 main_v12 main_v13 (addf : (⟨S128x36x1, .f32⟩ : BufTy).Contents (Elt F) → (⟨S128x36x1, .f32⟩ : BufTy).Contents (Elt F) → (⟨S128x36x1, .f32⟩ : BufTy).Contents (Elt F)),
    unary main_v13 main_v14 (broadcastInDim S128x36x1024 ![0, 1, 2] bcast_S128x36x1_S128x36x1024_0_1_2 : (⟨S128x36x1, .f32⟩ : BufTy).Contents (Elt F) → (⟨S128x36x1024, .f32⟩ : BufTy).Contents (Elt F)),
    binary main_v7 main_v14 main_v15 (Host.divf : (⟨S128x36x1024, .f32⟩ : BufTy).Contents (Elt F) → (⟨S128x36x1024, .f32⟩ : BufTy).Contents (Elt F) → (⟨S128x36x1024, .f32⟩ : BufTy).Contents (Elt F)),
    nullary main_cst_2 (constant S_ .f32 0x00000000#32),
    binary main_v15 main_cst_2 main_v16 ((fun x v => Host.reduceAdd x v reducesTo_S128x36x1024_S128x1024_d1 h_S_) : (⟨S128x36x1024, .f32⟩ : BufTy).Contents (Elt F) → (⟨S_, .f32⟩ : BufTy).Contents (Elt F) → (⟨S128x1024, .f32⟩ : BufTy).Contents (Elt F)),
    nullary main_cst_3 (constant S_ .f32 0x42100000#32),
    unary main_cst_3 main_v17 (broadcastInDim S128x1024 ![] bcast_S_S128x1024 : (⟨S_, .f32⟩ : BufTy).Contents (Elt F) → (⟨S128x1024, .f32⟩ : BufTy).Contents (Elt F)),
    binary main_v16 main_v17 main_v18 (Host.divf : (⟨S128x1024, .f32⟩ : BufTy).Contents (Elt F) → (⟨S128x1024, .f32⟩ : BufTy).Contents (Elt F) → (⟨S128x1024, .f32⟩ : BufTy).Contents (Elt F)),
    unary main_v5 main_v19 (broadcastInDim S640x50x1 ![0, 1] bcast_S640x50_S640x50x1_0_1 : (⟨S640x50, .i1⟩ : BufTy).Contents (Elt F) → (⟨S640x50x1, .i1⟩ : BufTy).Contents (Elt F)),
    unary main_v19 main_v20 (uitofp .f32 : (⟨S640x50x1, .i1⟩ : BufTy).Contents (Elt F) → (⟨S640x50x1, .f32⟩ : BufTy).Contents (Elt F)),
    unary main_v20 main_v21 (broadcastInDim S640x50x1024 ![0, 1, 2] bcast_S640x50x1_S640x50x1024_0_1_2 : (⟨S640x50x1, .f32⟩ : BufTy).Contents (Elt F) → (⟨S640x50x1024, .f32⟩ : BufTy).Contents (Elt F)),
    binary main_arg1 main_v21 main_v22 (mulf : (⟨S640x50x1024, .f32⟩ : BufTy).Contents (Elt F) → (⟨S640x50x1024, .f32⟩ : BufTy).Contents (Elt F) → (⟨S640x50x1024, .f32⟩ : BufTy).Contents (Elt F)),
    nullary main_cst_4 (constant S_ .f32 0x00000000#32),
    binary main_v22 main_cst_4 main_v23 ((fun x v => Host.reduceAdd x v reducesTo_S640x50x1024_S640x1024_d1 h_S_) : (⟨S640x50x1024, .f32⟩ : BufTy).Contents (Elt F) → (⟨S_, .f32⟩ : BufTy).Contents (Elt F) → (⟨S640x1024, .f32⟩ : BufTy).Contents (Elt F)),
    unary main_v6 main_v24 (broadcastInDim S640x1 ![0] bcast_S640_S640x1_0 : (⟨S640, .f32⟩ : BufTy).Contents (Elt F) → (⟨S640x1, .f32⟩ : BufTy).Contents (Elt F)),
    unary main_v24 main_v25 (broadcastInDim S640x1024 ![0, 1] bcast_S640x1_S640x1024_0_1 : (⟨S640x1, .f32⟩ : BufTy).Contents (Elt F) → (⟨S640x1024, .f32⟩ : BufTy).Contents (Elt F)),
    binary main_v23 main_v25 main_v26 (Host.divf : (⟨S640x1024, .f32⟩ : BufTy).Contents (Elt F) → (⟨S640x1024, .f32⟩ : BufTy).Contents (Elt F) → (⟨S640x1024, .f32⟩ : BufTy).Contents (Elt F)),
    binary main_v18 main_v18 main_v27 (mulf : (⟨S128x1024, .f32⟩ : BufTy).Contents (Elt F) → (⟨S128x1024, .f32⟩ : BufTy).Contents (Elt F) → (⟨S128x1024, .f32⟩ : BufTy).Contents (Elt F)),
    nullary main_cst_5 (constant S_ .f32 0x00000000#32),
    binary main_v27 main_cst_5 main_v28 ((fun x v => Host.reduceAdd x v reducesTo_S128x1024_S128_d1 h_S_) : (⟨S128x1024, .f32⟩ : BufTy).Contents (Elt F) → (⟨S_, .f32⟩ : BufTy).Contents (Elt F) → (⟨S128, .f32⟩ : BufTy).Contents (Elt F)),
    unary main_v28 main_v29 (broadcastInDim S128x1 ![0] bcast_S128_S128x1_0 : (⟨S128, .f32⟩ : BufTy).Contents (Elt F) → (⟨S128x1, .f32⟩ : BufTy).Contents (Elt F)),
    unary main_v29 main_v30 (Host.sqrt : (⟨S128x1, .f32⟩ : BufTy).Contents (Elt F) → (⟨S128x1, .f32⟩ : BufTy).Contents (Elt F)),
    nullary main_cst_6 (constant S_ .f32 0x322BCC77#32),
    unary main_cst_6 main_v31 (broadcastInDim S128x1 ![] bcast_S_S128x1 : (⟨S_, .f32⟩ : BufTy).Contents (Elt F) → (⟨S128x1, .f32⟩ : BufTy).Contents (Elt F)),
    binary main_v30 main_v31 main_v32 (addf : (⟨S128x1, .f32⟩ : BufTy).Contents (Elt F) → (⟨S128x1, .f32⟩ : BufTy).Contents (Elt F) → (⟨S128x1, .f32⟩ : BufTy).Contents (Elt F)),
    unary main_v32 main_v33 (broadcastInDim S128x1024 ![0, 1] bcast_S128x1_S128x1024_0_1 : (⟨S128x1, .f32⟩ : BufTy).Contents (Elt F) → (⟨S128x1024, .f32⟩ : BufTy).Contents (Elt F)),
    binary main_v18 main_v33 main_v34 (Host.divf : (⟨S128x1024, .f32⟩ : BufTy).Contents (Elt F) → (⟨S128x1024, .f32⟩ : BufTy).Contents (Elt F) → (⟨S128x1024, .f32⟩ : BufTy).Contents (Elt F)),
    binary main_v26 main_v26 main_v35 (mulf : (⟨S640x1024, .f32⟩ : BufTy).Contents (Elt F) → (⟨S640x1024, .f32⟩ : BufTy).Contents (Elt F) → (⟨S640x1024, .f32⟩ : BufTy).Contents (Elt F)),
    nullary main_cst_7 (constant S_ .f32 0x00000000#32),
    binary main_v35 main_cst_7 main_v36 ((fun x v => Host.reduceAdd x v reducesTo_S640x1024_S640_d1 h_S_) : (⟨S640x1024, .f32⟩ : BufTy).Contents (Elt F) → (⟨S_, .f32⟩ : BufTy).Contents (Elt F) → (⟨S640, .f32⟩ : BufTy).Contents (Elt F)),
    unary main_v36 main_v37 (broadcastInDim S640x1 ![0] bcast_S640_S640x1_0 : (⟨S640, .f32⟩ : BufTy).Contents (Elt F) → (⟨S640x1, .f32⟩ : BufTy).Contents (Elt F)),
    unary main_v37 main_v38 (Host.sqrt : (⟨S640x1, .f32⟩ : BufTy).Contents (Elt F) → (⟨S640x1, .f32⟩ : BufTy).Contents (Elt F)),
    nullary main_cst_8 (constant S_ .f32 0x322BCC77#32),
    unary main_cst_8 main_v39 (broadcastInDim S640x1 ![] bcast_S_S640x1 : (⟨S_, .f32⟩ : BufTy).Contents (Elt F) → (⟨S640x1, .f32⟩ : BufTy).Contents (Elt F)),
    binary main_v38 main_v39 main_v40 (addf : (⟨S640x1, .f32⟩ : BufTy).Contents (Elt F) → (⟨S640x1, .f32⟩ : BufTy).Contents (Elt F) → (⟨S640x1, .f32⟩ : BufTy).Contents (Elt F)),
    unary main_v40 main_v41 (broadcastInDim S640x1024 ![0, 1] bcast_S640x1_S640x1024_0_1 : (⟨S640x1, .f32⟩ : BufTy).Contents (Elt F) → (⟨S640x1024, .f32⟩ : BufTy).Contents (Elt F)),
    binary main_v26 main_v41 main_v42 (Host.divf : (⟨S640x1024, .f32⟩ : BufTy).Contents (Elt F) → (⟨S640x1024, .f32⟩ : BufTy).Contents (Elt F) → (⟨S640x1024, .f32⟩ : BufTy).Contents (Elt F)),
    unary main_v42 main_v43 ((transpose S1024x640 [1, 0] · transposes_S640x1024_S1024x640_1_0) : (⟨S640x1024, .f32⟩ : BufTy).Contents (Elt F) → (⟨S1024x640, .f32⟩ : BufTy).Contents (Elt F)),
    binary main_v34 main_v43 main_v44 ((fun l r => Host.dotGeneral dot_S128x1024_S1024x640_S128x640_1_0_0_1_n_n none l r) : (⟨S128x1024, .f32⟩ : BufTy).Contents (Elt F) → (⟨S1024x640, .f32⟩ : BufTy).Contents (Elt F) → (⟨S128x640, .f32⟩ : BufTy).Contents (Elt F)),
    nullary main_cst_9 (constant S_ .f32 0x3DCCCCCD#32),
    TRef.nullary main_call1.cst (constant S_ .f32 0x00000000#32),
    TRef.unary main_call1.cst main_call1.v0 (broadcastInDim S640x50x1024 ![] bcast_S_S640x50x1024),
    TRef.binary (.of main_arg1) main_call1.v0 main_call1.v1 (cmpf .oge),
    TRef.unary (.of main_cst_9) main_call1.v2 id,
    TRef.unary main_call1.v2 main_call1.v3 (broadcastInDim S640x50x1024 ![] bcast_S_S640x50x1024),
    TRef.binary main_call1.v3 (.of main_arg1) main_call1.v4 mulf,
    TRef.ternary main_call1.v1 (.of main_arg1) main_call1.v4 main_call1.call0.v0 select,
    binary main_v45 main_v45 main_v46 (mulf : (⟨S640x50x1024, .f32⟩ : BufTy).Contents (Elt F) → (⟨S640x50x1024, .f32⟩ : BufTy).Contents (Elt F) → (⟨S640x50x1024, .f32⟩ : BufTy).Contents (Elt F)),
    nullary main_cst_10 (constant S_ .f32 0x00000000#32),
    binary main_v46 main_cst_10 main_v47 ((fun x v => Host.reduceAdd x v reducesTo_S640x50x1024_S640x50_d2 h_S_) : (⟨S640x50x1024, .f32⟩ : BufTy).Contents (Elt F) → (⟨S_, .f32⟩ : BufTy).Contents (Elt F) → (⟨S640x50, .f32⟩ : BufTy).Contents (Elt F)),
    unary main_v47 main_v48 (broadcastInDim S640x50x1 ![0, 1] bcast_S640x50_S640x50x1_0_1 : (⟨S640x50, .f32⟩ : BufTy).Contents (Elt F) → (⟨S640x50x1, .f32⟩ : BufTy).Contents (Elt F)),
    unary main_v48 main_v49 (Host.sqrt : (⟨S640x50x1, .f32⟩ : BufTy).Contents (Elt F) → (⟨S640x50x1, .f32⟩ : BufTy).Contents (Elt F)),
    nullary main_cst_11 (constant S_ .f32 0x322BCC77#32),
    unary main_cst_11 main_v50 (broadcastInDim S640x50x1 ![] bcast_S_S640x50x1 : (⟨S_, .f32⟩ : BufTy).Contents (Elt F) → (⟨S640x50x1, .f32⟩ : BufTy).Contents (Elt F)),
    binary main_v49 main_v50 main_v51 (addf : (⟨S640x50x1, .f32⟩ : BufTy).Contents (Elt F) → (⟨S640x50x1, .f32⟩ : BufTy).Contents (Elt F) → (⟨S640x50x1, .f32⟩ : BufTy).Contents (Elt F)),
    unary main_v51 main_v52 (broadcastInDim S640x50x1024 ![0, 1, 2] bcast_S640x50x1_S640x50x1024_0_1_2 : (⟨S640x50x1, .f32⟩ : BufTy).Contents (Elt F) → (⟨S640x50x1024, .f32⟩ : BufTy).Contents (Elt F)),
    binary main_v45 main_v52 main_v53 (Host.divf : (⟨S640x50x1024, .f32⟩ : BufTy).Contents (Elt F) → (⟨S640x50x1024, .f32⟩ : BufTy).Contents (Elt F) → (⟨S640x50x1024, .f32⟩ : BufTy).Contents (Elt F)),
    unary main_v5 main_v54 (broadcastInDim S640x50x1 ![0, 1] bcast_S640x50_S640x50x1_0_1 : (⟨S640x50, .i1⟩ : BufTy).Contents (Elt F) → (⟨S640x50x1, .i1⟩ : BufTy).Contents (Elt F)),
    unary main_v54 main_v55 (uitofp .f32 : (⟨S640x50x1, .i1⟩ : BufTy).Contents (Elt F) → (⟨S640x50x1, .f32⟩ : BufTy).Contents (Elt F)),
    unary main_v55 main_v56 (broadcastInDim S640x50x1024 ![0, 1, 2] bcast_S640x50x1_S640x50x1024_0_1_2 : (⟨S640x50x1, .f32⟩ : BufTy).Contents (Elt F) → (⟨S640x50x1024, .f32⟩ : BufTy).Contents (Elt F)),
    binary main_v53 main_v56 main_v57 (mulf : (⟨S640x50x1024, .f32⟩ : BufTy).Contents (Elt F) → (⟨S640x50x1024, .f32⟩ : BufTy).Contents (Elt F) → (⟨S640x50x1024, .f32⟩ : BufTy).Contents (Elt F)),
    nullary main_cst_12 (constant S_ .f32 0x00000000#32),
    binary main_v57 main_cst_12 main_v58 ((fun x v => Host.reduceAdd x v reducesTo_S640x50x1024_S640x1024_d1 h_S_) : (⟨S640x50x1024, .f32⟩ : BufTy).Contents (Elt F) → (⟨S_, .f32⟩ : BufTy).Contents (Elt F) → (⟨S640x1024, .f32⟩ : BufTy).Contents (Elt F)),
    nullary main_cst_13 (constant S_ .f32 0x00000000#32),
    binary main_v15 main_cst_13 main_v59 ((fun x v => Host.reduceAdd x v reducesTo_S128x36x1024_S128x1024_d1 h_S_) : (⟨S128x36x1024, .f32⟩ : BufTy).Contents (Elt F) → (⟨S_, .f32⟩ : BufTy).Contents (Elt F) → (⟨S128x1024, .f32⟩ : BufTy).Contents (Elt F)),
    unary main_v58 main_v60 ((transpose S1024x640 [1, 0] · transposes_S640x1024_S1024x640_1_0) : (⟨S640x1024, .f32⟩ : BufTy).Contents (Elt F) → (⟨S1024x640, .f32⟩ : BufTy).Contents (Elt F)),
    binary main_v59 main_v60 main_v61 ((fun l r => Host.dotGeneral dot_S128x1024_S1024x640_S128x640_1_0_0_1_n_n none l r) : (⟨S128x1024, .f32⟩ : BufTy).Contents (Elt F) → (⟨S1024x640, .f32⟩ : BufTy).Contents (Elt F) → (⟨S128x640, .f32⟩ : BufTy).Contents (Elt F)),
    unary main_v6 main_v62 (broadcastInDim S1x640 ![1] bcast_S640_S1x640_1 : (⟨S640, .f32⟩ : BufTy).Contents (Elt F) → (⟨S1x640, .f32⟩ : BufTy).Contents (Elt F)),
    nullary main_cst_14 (constant S_ .f32 0x42100000#32),
    unary main_cst_14 main_v63 (broadcastInDim S1x640 ![] bcast_S_S1x640 : (⟨S_, .f32⟩ : BufTy).Contents (Elt F) → (⟨S1x640, .f32⟩ : BufTy).Contents (Elt F)),
    binary main_v63 main_v62 main_v64 (mulf : (⟨S1x640, .f32⟩ : BufTy).Contents (Elt F) → (⟨S1x640, .f32⟩ : BufTy).Contents (Elt F) → (⟨S1x640, .f32⟩ : BufTy).Contents (Elt F)),
    unary main_v64 main_v65 (broadcastInDim S128x640 ![0, 1] bcast_S1x640_S128x640_0_1 : (⟨S1x640, .f32⟩ : BufTy).Contents (Elt F) → (⟨S128x640, .f32⟩ : BufTy).Contents (Elt F)),
    binary main_v61 main_v65 main_v66 (Host.divf : (⟨S128x640, .f32⟩ : BufTy).Contents (Elt F) → (⟨S128x640, .f32⟩ : BufTy).Contents (Elt F) → (⟨S128x640, .f32⟩ : BufTy).Contents (Elt F)),
    binary main_v66 main_v44 main_v67 (addf : (⟨S128x640, .f32⟩ : BufTy).Contents (Elt F) → (⟨S128x640, .f32⟩ : BufTy).Contents (Elt F) → (⟨S128x640, .f32⟩ : BufTy).Contents (Elt F)),
    nullary main_cst_15 (constant S_ .f32 0x40000000#32),
    unary main_cst_15 main_v68 (broadcastInDim S128x640 ![] bcast_S_S128x640 : (⟨S_, .f32⟩ : BufTy).Contents (Elt F) → (⟨S128x640, .f32⟩ : BufTy).Contents (Elt F)),
    binary main_v67 main_v68 main_v69 (Host.divf : (⟨S128x640, .f32⟩ : BufTy).Contents (Elt F) → (⟨S128x640, .f32⟩ : BufTy).Contents (Elt F) → (⟨S128x640, .f32⟩ : BufTy).Contents (Elt F)) ]

set_option maxRecDepth 16384 in
set_option maxHeartbeats 8000000 in
/-- @main is that straight line: the called functions unfolded at their calls, sequencing reassociated. -/
theorem main_eq (c : Dev nD) : main (F := F) c = seq ops := by
  simp only [main, main_part0, main_part1, fn_leaky_relu.body, fn_leaky_relu_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., unary_bufs_sub .., binary_bufs_sub .., nullary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., unary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub ..⟩

/-- Every execution ends with every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  The reference's run read at its result: the fold of the 99 operations at the result buffer is `refTerm` of the launch
  contents of the three arguments (each operation's result is its function of the buffers it reads), and no operation writes an
  argument.
-/
import proofs.«163725_j65214783422660_2_alg».proof.Proof.RefRun

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

set_option maxRecDepth 16384 in
set_option maxHeartbeats 4000000 in
theorem out_eq (V : Valuation τ sig (Elt F)) :
    after ops V (Proc.devRef .tc main_v69)
      = Term.refTerm (V (Proc.devRef .tc main_arg0)) (V (Proc.devRef .tc main_arg1)) (V (Proc.devRef .tc main_arg2)) := by
  simp only [after_cons, after_nil]
  rfl

set_option maxRecDepth 16384 in
set_option maxHeartbeats 4000000 in
theorem arg0_eq (V : Valuation τ sig (Elt F)) : after ops V (Proc.devRef .tc main_arg0) = V (Proc.devRef .tc main_arg0) := by
  simp only [after_cons, after_nil]
  rfl

set_option maxRecDepth 16384 in
set_option maxHeartbeats 4000000 in
theorem arg1_eq (V : Valuation τ sig (Elt F)) : after ops V (Proc.devRef .tc main_arg1) = V (Proc.devRef .tc main_arg1) := by
  simp only [after_cons, after_nil]
  rfl

set_option maxRecDepth 16384 in
set_option maxHeartbeats 4000000 in
theorem arg2_eq (V : Valuation τ sig (Elt F)) : after ops V (Proc.devRef .tc main_arg2) = V (Proc.devRef .tc main_arg2) := by
  simp only [after_cons, after_nil]
  rfl

/-- Every execution of the reference terminates with the result buffer at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69)
        = Term.refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v69).trans (out_eq _), (h c main_arg0).trans (arg0_eq _),
      (h c main_arg1).trans (arg1_eq _), (h c main_arg2).trans (arg2_eq _)⟩)
    (run_main m ρ)

end Cert.ReferenceIdeal.RefRun

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.RefStages.lean ====
/-
  The reference's program cut into named stages: each definition below is a run of consecutive lines of the program
  applied to the stages it reads, so that the whole program is the last stage (`refTerm_eq_entry`).
  The stages follow the mathematics: the rectified and normalized regions and words, the word mask, the masked sums,
  the two mean vectors and their normalizations, the two inner products, and the entry.
-/
import proofs.«163725_j65214783422660_2_alg».proof.Proof.Spec
import proofs.«163725_j65214783422660_2_alg».proof.Proof.RefTerm

noncomputable section

open scoped BigOperators

namespace Cert.ReferenceIdeal.RefValue

open Cert.ReferenceIdeal Idealize.ShloMosaic
open Cert.ReferenceIdeal.Facts₀

variable {F : FTy → Type} [FloatOps F]

/-- Lines main_v6 … main_v6 of the program. -/
def lenF (main_arg2 : (⟨S640, .i32⟩ : BufTy).Contents (Elt F)) :
    (⟨S640, .f32⟩ : BufTy).Contents (Elt F) :=
  have main_v6 : (⟨S640, .f32⟩ : BufTy).Contents (Elt F) := (sitofp .f32 : (⟨S640, .i32⟩ : BufTy).Contents (Elt F) → (⟨S640, .f32⟩ : BufTy).Contents (Elt F)) main_arg2
  main_v6

/-- Lines main_v0 … main_v5 of the program. -/
def maskBits (main_arg2 : (⟨S640, .i32⟩ : BufTy).Contents (Elt F)) :
    (⟨S640x50, .i1⟩ : BufTy).Contents (Elt F) :=
  have main_v0 : (⟨S50, .i32⟩ : BufTy).Contents (Elt F) := (iotaInDim S50 32 0)
  have main_v1 : (⟨S1x50, .i32⟩ : BufTy).Contents (Elt F) := (broadcastInDim S1x50 ![1] bcast_S50_S1x50_1 : (⟨S50, .i32⟩ : BufTy).Contents (Elt F) → (⟨S1x50, .i32⟩ : BufTy).Contents (Elt F)) main_v0
  have main_v2 : (⟨S640x1, .i32⟩ : BufTy).Contents (Elt F) := (broadcastInDim S640x1 ![0] bcast_S640_S640x1_0 : (⟨S640, .i32⟩ : BufTy).Contents (Elt F) → (⟨S640x1, .i32⟩ : BufTy).Contents (Elt F)) main_arg2
  have main_v3 : (⟨S640x50, .i32⟩ : BufTy).Contents (Elt F) := (broadcastInDim S640x50 ![0, 1] bcast_S1x50_S640x50_0_1 : (⟨S1x50, .i32⟩ : BufTy).Contents (Elt F) → (⟨S640x50, .i32⟩ : BufTy).Contents (Elt F)) main_v1
  have main_v4 : (⟨S640x50, .i32⟩ : BufTy).Contents (Elt F) := (broadcastInDim S640x50 ![0, 1] bcast_S640x1_S640x50_0_1 : (⟨S640x1, .i32⟩ : BufTy).Contents (Elt F) → (⟨S640x50, .i32⟩ : BufTy).Contents (Elt F)) main_v2
  have main_v5 : (⟨S640x50, .i1⟩ : BufTy).Contents (Elt F) := (cmpi .slt : (⟨S640x50, .i32⟩ : BufTy).Contents (Elt F) → (⟨S640x50, .i32⟩ : BufTy).Contents (Elt F) → (⟨S640x50, .i1⟩ : BufTy).Contents (Elt F)) main_v3 main_v4
  main_v5

/-- Lines main_cst … main_v7 of the program. -/
def imgLeaky (main_arg0 : (⟨S128x36x1024, .f32⟩ : BufTy).Contents (Elt F)) :
    (⟨S128x36x1024, .f32⟩ : BufTy).Contents (Elt F) :=
  have main_cst : (⟨S_, .f32⟩ : BufTy).Contents (Elt F) := (constant S_ .f32 0x3DCCCCCD#32)
  have main_call0_cst : (⟨S_, .f32⟩ : BufTy).Contents (Elt F) := (constant S_ .f32 0x00000000#32)
  have main_call0_v0 : (⟨S128x36x1024, .f32⟩ : BufTy).Contents (Elt F) := (broadcastInDim S128x36x1024 ![] bcast_S_S128x36x1024) main_call0_cst
  have main_call0_v1 : (⟨S128x36x1024, .i1⟩ : BufTy).Contents (Elt F) := (cmpf .oge) main_arg0 main_call0_v0
  have main_call0_v2 : (⟨S_, .f32⟩ : BufTy).Contents (Elt F) := id main_cst
  have main_call0_v3 : (⟨S128x36x1024, .f32⟩ : BufTy).Contents (Elt F) := (broadcastInDim S128x36x1024 ![] bcast_S_S128x36x1024) main_call0_v2
  have main_call0_v4 : (⟨S128x36x1024, .f32⟩ : BufTy).Contents (Elt F) := mulf main_call0_v3 main_arg0
  have main_v7 : (⟨S128x36x1024, .f32⟩ : BufTy).Contents (Elt F) := select main_call0_v1 main_arg0 main_call0_v4
  main_v7

/-- Lines main_v8 … main_v15 of the program. -/
def imgUnit (main_arg0 : (⟨S128x36x1024, .f32⟩ : BufTy).Contents (Elt F)) :
    (⟨S128x36x1024, .f32⟩ : BufTy).Contents (Elt F) :=
  have main_v7 : (⟨S128x36x1024, .f32⟩ : BufTy).Contents (Elt F) := imgLeaky main_arg0
  have main_v8 : (⟨S128x36x1024, .f32⟩ : BufTy).Contents (Elt F) := (mulf : (⟨S128x36x1024, .f32⟩ : BufTy).Contents (Elt F) → (⟨S128x36x1024, .f32⟩ : BufTy).Contents (Elt F) → (⟨S128x36x1024, .f32⟩ : BufTy).Contents (Elt F)) main_v7 main_v7
  have main_cst_0 : (⟨S_, .f32⟩ : BufTy).Contents (Elt F) := (constant S_ .f32 0x00000000#32)
  have main_v9 : (⟨S128x36, .f32⟩ : BufTy).Contents (Elt F) := ((fun x v => Host.reduceAdd x v reducesTo_S128x36x1024_S128x36_d2 h_S_) : (⟨S128x36x1024, .f32⟩ : BufTy).Contents (Elt F) → (⟨S_, .f32⟩ : BufTy).Contents (Elt F) → (⟨S128x36, .f32⟩ : BufTy).Contents (Elt F)) main_v8 main_cst_0
  have main_v10 : (⟨S128x36x1, .f32⟩ : BufTy).Contents (Elt F) := (broadcastInDim S128x36x1 ![0, 1] bcast_S128x36_S128x36x1_0_1 : (⟨S128x36, .f32⟩ : BufTy).Contents (Elt F) → (⟨S128x36x1, .f32⟩ : BufTy).Contents (Elt F)) main_v9
  have main_v11 : (⟨S128x36x1, .f32⟩ : BufTy).Contents (Elt F) := (Host.sqrt : (⟨S128x36x1, .f32⟩ : BufTy).Contents (Elt F) → (⟨S128x36x1, .f32⟩ : BufTy).Contents (Elt F)) main_v10
  have main_cst_1 : (⟨S_, .f32⟩ : BufTy).Contents (Elt F) := (constant S_ .f32 0x322BCC77#32)
  have main_v12 : (⟨S128x36x1, .f32⟩ : BufTy).Contents (Elt F) := (broadcastInDim S128x36x1 ![] bcast_S_S128x36x1 : (⟨S_, .f32⟩ : BufTy).Contents (Elt F) → (⟨S128x36x1, .f32⟩ : BufTy).Contents (Elt F)) main_cst_1
  have main_v13 : (⟨S128x36x1, .f32⟩ : BufTy).Contents (Elt F) := (addf : (⟨S128x36x1, .f32⟩ : BufTy).Contents (Elt F) → (⟨S128x36x1, .f32⟩ : BufTy).Contents (Elt F) → (⟨S128x36x1, .f32⟩ : BufTy).Contents (Elt F)) main_v11 main_v12
  have main_v14 : (⟨S128x36x1024, .f32⟩ : BufTy).Contents (Elt F) := (broadcastInDim S128x36x1024 ![0, 1, 2] bcast_S128x36x1_S128x36x1024_0_1_2 : (⟨S128x36x1, .f32⟩ : BufTy).Contents (Elt F) → (⟨S128x36x1024, .f32⟩ : BufTy).Contents (Elt F)) main_v13
  have main_v15 : (⟨S128x36x1024, .f32⟩ : BufTy).Contents (Elt F) := (Host.divf : (⟨S128x36x1024, .f32⟩ : BufTy).Contents (Elt F) → (⟨S128x36x1024, .f32⟩ : BufTy).Contents (Elt F) → (⟨S128x36x1024, .f32⟩ : BufTy).Contents (Elt F)) main_v7 main_v14
  main_v15

/-- Lines main_cst_2 … main_v16 of the program. -/
def imgSum (main_arg0 : (⟨S128x36x1024, .f32⟩ : BufTy).Contents (Elt F)) :
    (⟨S128x1024, .f32⟩ : BufTy).Contents (Elt F) :=
  have main_v15 : (⟨S128x36x1024, .f32⟩ : BufTy).Contents (Elt F) := imgUnit main_arg0
  have main_cst_2 : (⟨S_, .f32⟩ : BufTy).Contents (Elt F) := (constant S_ .f32 0x00000000#32)
  have main_v16 : (⟨S128x1024, .f32⟩ : BufTy).Contents (Elt F) := ((fun x v => Host.reduceAdd x v reducesTo_S128x36x1024_S128x1024_d1 h_S_) : (⟨S128x36x1024, .f32⟩ : BufTy).Contents (Elt F) → (⟨S_, .f32⟩ : BufTy).Contents (Elt F) → (⟨S128x1024, .f32⟩ : BufTy).Contents (Elt F)) main_v15 main_cst_2
  main_v16

/-- Lines main_cst_3 … main_v18 of the program. -/
def imgMean (main_arg0 : (⟨S128x36x1024, .f32⟩ : BufTy).Contents (Elt F)) :
    (⟨S128x1024, .f32⟩ : BufTy).Contents (Elt F) :=
  have main_v16 : (⟨S128x1024, .f32⟩ : BufTy).Contents (Elt F) := imgSum main_arg0
  have main_cst_3 : (⟨S_, .f32⟩ : BufTy).Contents (Elt F) := (constant S_ .f32 0x42100000#32)
  have main_v17 : (⟨S128x1024, .f32⟩ : BufTy).Contents (Elt F) := (broadcastInDim S128x1024 ![] bcast_S_S128x1024 : (⟨S_, .f32⟩ : BufTy).Contents (Elt F) → (⟨S128x1024, .f32⟩ : BufTy).Contents (Elt F)) main_cst_3
  have main_v18 : (⟨S128x1024, .f32⟩ : BufTy).Contents (Elt F) := (Host.divf : (⟨S128x1024, .f32⟩ : BufTy).Contents (Elt F) → (⟨S128x1024, .f32⟩ : BufTy).Contents (Elt F) → (⟨S128x1024, .f32⟩ : BufTy).Contents (Elt F)) main_v16 main_v17
  main_v18

/-- Lines main_v19 … main_v21 of the program. -/
def maskF (main_arg2 : (⟨S640, .i32⟩ : BufTy).Contents (Elt F)) :
    (⟨S640x50x1024, .f32⟩ : BufTy).Contents (Elt F) :=
  have main_v5 : (⟨S640x50, .i1⟩ : BufTy).Contents (Elt F) := maskBits main_arg2
  have main_v19 : (⟨S640x50x1, .i1⟩ : BufTy).Contents (Elt F) := (broadcastInDim S640x50x1 ![0, 1] bcast_S640x50_S640x50x1_0_1 : (⟨S640x50, .i1⟩ : BufTy).Contents (Elt F) → (⟨S640x50x1, .i1⟩ : BufTy).Contents (Elt F)) main_v5
  have main_v20 : (⟨S640x50x1, .f32⟩ : BufTy).Contents (Elt F) := (uitofp .f32 : (⟨S640x50x1, .i1⟩ : BufTy).Contents (Elt F) → (⟨S640x50x1, .f32⟩ : BufTy).Contents (Elt F)) main_v19
  have main_v21 : (⟨S640x50x1024, .f32⟩ : BufTy).Contents (Elt F) := (broadcastInDim S640x50x1024 ![0, 1, 2] bcast_S640x50x1_S640x50x1024_0_1_2 : (⟨S640x50x1, .f32⟩ : BufTy).Contents (Elt F) → (⟨S640x50x1024, .f32⟩ : BufTy).Contents (Elt F)) main_v20
  main_v21

/-- Lines main_v22 … main_v23 of the program. -/
def rawSum (main_arg1 : (⟨S640x50x1024, .f32⟩ : BufTy).Contents (Elt F)) (main_arg2 : (⟨S640, .i32⟩ : BufTy).Contents (Elt F)) :
    (⟨S640x1024, .f32⟩ : BufTy).Contents (Elt F) :=
  have main_v21 : (⟨S640x50x1024, .f32⟩ : BufTy).Contents (Elt F) := maskF main_arg2
  have main_v22 : (⟨S640x50x1024, .f32⟩ : BufTy).Contents (Elt F) := (mulf : (⟨S640x50x1024, .f32⟩ : BufTy).Contents (Elt F) → (⟨S640x50x1024, .f32⟩ : BufTy).Contents (Elt F) → (⟨S640x50x1024, .f32⟩ : BufTy).Contents (Elt F)) main_arg1 main_v21
  have main_cst_4 : (⟨S_, .f32⟩ : BufTy).Contents (Elt F) := (constant S_ .f32 0x00000000#32)
  have main_v23 : (⟨S640x1024, .f32⟩ : BufTy).Contents (Elt F) := ((fun x v => Host.reduceAdd x v reducesTo_S640x50x1024_S640x1024_d1 h_S_) : (⟨S640x50x1024, .f32⟩ : BufTy).Contents (Elt F) → (⟨S_, .f32⟩ : BufTy).Contents (Elt F) → (⟨S640x1024, .f32⟩ : BufTy).Contents (Elt F)) main_v22 main_cst_4
  main_v23

/-- Lines main_v24 … main_v26 of the program. -/
def capMean (main_arg1 : (⟨S640x50x1024, .f32⟩ : BufTy).Contents (Elt F)) (main_arg2 : (⟨S640, .i32⟩ : BufTy).Contents (Elt F)) :
    (⟨S640x1024, .f32⟩ : BufTy).Contents (Elt F) :=
  have main_v6 : (⟨S640, .f32⟩ : BufTy).Contents (Elt F) := lenF main_arg2
  have main_v23 : (⟨S640x1024, .f32⟩ : BufTy).Contents (Elt F) := rawSum main_arg1 main_arg2
  have main_v24 : (⟨S640x1, .f32⟩ : BufTy).Contents (Elt F) := (broadcastInDim S640x1 ![0] bcast_S640_S640x1_0 : (⟨S640, .f32⟩ : BufTy).Contents (Elt F) → (⟨S640x1, .f32⟩ : BufTy).Contents (Elt F)) main_v6
  have main_v25 : (⟨S640x1024, .f32⟩ : BufTy).Contents (Elt F) := (broadcastInDim S640x1024 ![0, 1] bcast_S640x1_S640x1024_0_1 : (⟨S640x1, .f32⟩ : BufTy).Contents (Elt F) → (⟨S640x1024, .f32⟩ : BufTy).Contents (Elt F)) main_v24
  have main_v26 : (⟨S640x1024, .f32⟩ : BufTy).Contents (Elt F) := (Host.divf : (⟨S640x1024, .f32⟩ : BufTy).Contents (Elt F) → (⟨S640x1024, .f32⟩ : BufTy).Contents (Elt F) → (⟨S640x1024, .f32⟩ : BufTy).Contents (Elt F)) main_v23 main_v25
  main_v26

/-- Lines main_v27 … main_v34 of the program. -/
def imgMeanUnit (main_arg0 : (⟨S128x36x1024, .f32⟩ : BufTy).Contents (Elt F)) :
    (⟨S128x1024, .f32⟩ : BufTy).Contents (Elt F) :=
  have main_v18 : (⟨S128x1024, .f32⟩ : BufTy).Contents (Elt F) := imgMean main_arg0
  have main_v27 : (⟨S128x1024, .f32⟩ : BufTy).Contents (Elt F) := (mulf : (⟨S128x1024, .f32⟩ : BufTy).Contents (Elt F) → (⟨S128x1024, .f32⟩ : BufTy).Contents (Elt F) → (⟨S128x1024, .f32⟩ : BufTy).Contents (Elt F)) main_v18 main_v18
  have main_cst_5 : (⟨S_, .f32⟩ : BufTy).Contents (Elt F) := (constant S_ .f32 0x00000000#32)
  have main_v28 : (⟨S128, .f32⟩ : BufTy).Contents (Elt F) := ((fun x v => Host.reduceAdd x v reducesTo_S128x1024_S128_d1 h_S_) : (⟨S128x1024, .f32⟩ : BufTy).Contents (Elt F) → (⟨S_, .f32⟩ : BufTy).Contents (Elt F) → (⟨S128, .f32⟩ : BufTy).Contents (Elt F)) main_v27 main_cst_5
  have main_v29 : (⟨S128x1, .f32⟩ : BufTy).Contents (Elt F) := (broadcastInDim S128x1 ![0] bcast_S128_S128x1_0 : (⟨S128, .f32⟩ : BufTy).Contents (Elt F) → (⟨S128x1, .f32⟩ : BufTy).Contents (Elt F)) main_v28
  have main_v30 : (⟨S128x1, .f32⟩ : BufTy).Contents (Elt F) := (Host.sqrt : (⟨S128x1, .f32⟩ : BufTy).Contents (Elt F) → (⟨S128x1, .f32⟩ : BufTy).Contents (Elt F)) main_v29
  have main_cst_6 : (⟨S_, .f32⟩ : BufTy).Contents (Elt F) := (constant S_ .f32 0x322BCC77#32)
  have main_v31 : (⟨S128x1, .f32⟩ : BufTy).Contents (Elt F) := (broadcastInDim S128x1 ![] bcast_S_S128x1 : (⟨S_, .f32⟩ : BufTy).Contents (Elt F) → (⟨S128x1, .f32⟩ : BufTy).Contents (Elt F)) main_cst_6
  have main_v32 : (⟨S128x1, .f32⟩ : BufTy).Contents (Elt F) := (addf : (⟨S128x1, .f32⟩ : BufTy).Contents (Elt F) → (⟨S128x1, .f32⟩ : BufTy).Contents (Elt F) → (⟨S128x1, .f32⟩ : BufTy).Contents (Elt F)) main_v30 main_v31
  have main_v33 : (⟨S128x1024, .f32⟩ : BufTy).Contents (Elt F) := (broadcastInDim S128x1024 ![0, 1] bcast_S128x1_S128x1024_0_1 : (⟨S128x1, .f32⟩ : BufTy).Contents (Elt F) → (⟨S128x1024, .f32⟩ : BufTy).Contents (Elt F)) main_v32
  have main_v34 : (⟨S128x1024, .f32⟩ : BufTy).Contents (Elt F) := (Host.divf : (⟨S128x1024, .f32⟩ : BufTy).Contents (Elt F) → (⟨S128x1024, .f32⟩ : BufTy).Contents (Elt F) → (⟨S128x1024, .f32⟩ : BufTy).Contents (Elt F)) main_v18 main_v33
  main_v34

/-- Lines main_v35 … main_v42 of the program. -/
def capMeanUnit (main_arg1 : (⟨S640x50x1024, .f32⟩ : BufTy).Contents (Elt F)) (main_arg2 : (⟨S640, .i32⟩ : BufTy).Contents (Elt F)) :
    (⟨S640x1024, .f32⟩ : BufTy).Contents (Elt F) :=
  have main_v26 : (⟨S640x1024, .f32⟩ : BufTy).Contents (Elt F) := capMean main_arg1 main_arg2
  have main_v35 : (⟨S640x1024, .f32⟩ : BufTy).Contents (Elt F) := (mulf : (⟨S640x1024, .f32⟩ : BufTy).Contents (Elt F) → (⟨S640x1024, .f32⟩ : BufTy).Contents (Elt F) → (⟨S640x1024, .f32⟩ : BufTy).Contents (Elt F)) main_v26 main_v26
  have main_cst_7 : (⟨S_, .f32⟩ : BufTy).Contents (Elt F) := (constant S_ .f32 0x00000000#32)
  have main_v36 : (⟨S640, .f32⟩ : BufTy).Contents (Elt F) := ((fun x v => Host.reduceAdd x v reducesTo_S640x1024_S640_d1 h_S_) : (⟨S640x1024, .f32⟩ : BufTy).Contents (Elt F) → (⟨S_, .f32⟩ : BufTy).Contents (Elt F) → (⟨S640, .f32⟩ : BufTy).Contents (Elt F)) main_v35 main_cst_7
  have main_v37 : (⟨S640x1, .f32⟩ : BufTy).Contents (Elt F) := (broadcastInDim S640x1 ![0] bcast_S640_S640x1_0 : (⟨S640, .f32⟩ : BufTy).Contents (Elt F) → (⟨S640x1, .f32⟩ : BufTy).Contents (Elt F)) main_v36
  have main_v38 : (⟨S640x1, .f32⟩ : BufTy).Contents (Elt F) := (Host.sqrt : (⟨S640x1, .f32⟩ : BufTy).Contents (Elt F) → (⟨S640x1, .f32⟩ : BufTy).Contents (Elt F)) main_v37
  have main_cst_8 : (⟨S_, .f32⟩ : BufTy).Contents (Elt F) := (constant S_ .f32 0x322BCC77#32)
  have main_v39 : (⟨S640x1, .f32⟩ : BufTy).Contents (Elt F) := (broadcastInDim S640x1 ![] bcast_S_S640x1 : (⟨S_, .f32⟩ : BufTy).Contents (Elt F) → (⟨S640x1, .f32⟩ : BufTy).Contents (Elt F)) main_cst_8
  have main_v40 : (⟨S640x1, .f32⟩ : BufTy).Contents (Elt F) := (addf : (⟨S640x1, .f32⟩ : BufTy).Contents (Elt F) → (⟨S640x1, .f32⟩ : BufTy).Contents (Elt F) → (⟨S640x1, .f32⟩ : BufTy).Contents (Elt F)) main_v38 main_v39
  have main_v41 : (⟨S640x1024, .f32⟩ : BufTy).Contents (Elt F) := (broadcastInDim S640x1024 ![0, 1] bcast_S640x1_S640x1024_0_1 : (⟨S640x1, .f32⟩ : BufTy).Contents (Elt F) → (⟨S640x1024, .f32⟩ : BufTy).Contents (Elt F)) main_v40
  have main_v42 : (⟨S640x1024, .f32⟩ : BufTy).Contents (Elt F) := (Host.divf : (⟨S640x1024, .f32⟩ : BufTy).Contents (Elt F) → (⟨S640x1024, .f32⟩ : BufTy).Contents (Elt F) → (⟨S640x1024, .f32⟩ : BufTy).Contents (Elt F)) main_v26 main_v41
  main_v42

/-- Lines main_v43 … main_v43 of the program. -/
def capMeanUnitT (main_arg1 : (⟨S640x50x1024, .f32⟩ : BufTy).Contents (Elt F)) (main_arg2 : (⟨S640, .i32⟩ : BufTy).Contents (Elt F)) :
    (⟨S1024x640, .f32⟩ : BufTy).Contents (Elt F) :=
  have main_v42 : (⟨S640x1024, .f32⟩ : BufTy).Contents (Elt F) := capMeanUnit main_arg1 main_arg2
  have main_v43 : (⟨S1024x640, .f32⟩ : BufTy).Contents (Elt F) := ((transpose S1024x640 [1, 0] · transposes_S640x1024_S1024x640_1_0) : (⟨S640x1024, .f32⟩ : BufTy).Contents (Elt F) → (⟨S1024x640, .f32⟩ : BufTy).Contents (Elt F)) main_v42
  main_v43

/-- Lines main_v44 … main_v44 of the program. -/
def simMean (main_arg0 : (⟨S128x36x1024, .f32⟩ : BufTy).Contents (Elt F)) (main_arg1 : (⟨S640x50x1024, .f32⟩ : BufTy).Contents (Elt F)) (main_arg2 : (⟨S640, .i32⟩ : BufTy).Contents (Elt F)) :
    (⟨S128x640, .f32⟩ : BufTy).Contents (Elt F) :=
  have main_v34 : (⟨S128x1024, .f32⟩ : BufTy).Contents (Elt F) := imgMeanUnit main_arg0
  have main_v43 : (⟨S1024x640, .f32⟩ : BufTy).Contents (Elt F) := capMeanUnitT main_arg1 main_arg2
  have main_v44 : (⟨S128x640, .f32⟩ : BufTy).Contents (Elt F) := ((fun l r => Host.dotGeneral dot_S128x1024_S1024x640_S128x640_1_0_0_1_n_n none l r) : (⟨S128x1024, .f32⟩ : BufTy).Contents (Elt F) → (⟨S1024x640, .f32⟩ : BufTy).Contents (Elt F) → (⟨S128x640, .f32⟩ : BufTy).Contents (Elt F)) main_v34 main_v43
  main_v44

/-- Lines main_cst_9 … main_v45 of the program. -/
def capLeaky (main_arg1 : (⟨S640x50x1024, .f32⟩ : BufTy).Contents (Elt F)) :
    (⟨S640x50x1024, .f32⟩ : BufTy).Contents (Elt F) :=
  have main_cst_9 : (⟨S_, .f32⟩ : BufTy).Contents (Elt F) := (constant S_ .f32 0x3DCCCCCD#32)
  have main_call1_cst : (⟨S_, .f32⟩ : BufTy).Contents (Elt F) := (constant S_ .f32 0x00000000#32)
  have main_call1_v0 : (⟨S640x50x1024, .f32⟩ : BufTy).Contents (Elt F) := (broadcastInDim S640x50x1024 ![] bcast_S_S640x50x1024) main_call1_cst
  have main_call1_v1 : (⟨S640x50x1024, .i1⟩ : BufTy).Contents (Elt F) := (cmpf .oge) main_arg1 main_call1_v0
  have main_call1_v2 : (⟨S_, .f32⟩ : BufTy).Contents (Elt F) := id main_cst_9
  have main_call1_v3 : (⟨S640x50x1024, .f32⟩ : BufTy).Contents (Elt F) := (broadcastInDim S640x50x1024 ![] bcast_S_S640x50x1024) main_call1_v2
  have main_call1_v4 : (⟨S640x50x1024, .f32⟩ : BufTy).Contents (Elt F) := mulf main_call1_v3 main_arg1
  have main_v45 : (⟨S640x50x1024, .f32⟩ : BufTy).Contents (Elt F) := select main_call1_v1 main_arg1 main_call1_v4
  main_v45

/-- Lines main_v46 … main_v53 of the program. -/
def capUnit (main_arg1 : (⟨S640x50x1024, .f32⟩ : BufTy).Contents (Elt F)) :
    (⟨S640x50x1024, .f32⟩ : BufTy).Contents (Elt F) :=
  have main_v45 : (⟨S640x50x1024, .f32⟩ : BufTy).Contents (Elt F) := capLeaky main_arg1
  have main_v46 : (⟨S640x50x1024, .f32⟩ : BufTy).Contents (Elt F) := (mulf : (⟨S640x50x1024, .f32⟩ : BufTy).Contents (Elt F) → (⟨S640x50x1024, .f32⟩ : BufTy).Contents (Elt F) → (⟨S640x50x1024, .f32⟩ : BufTy).Contents (Elt F)) main_v45 main_v45
  have main_cst_10 : (⟨S_, .f32⟩ : BufTy).Contents (Elt F) := (constant S_ .f32 0x00000000#32)
  have main_v47 : (⟨S640x50, .f32⟩ : BufTy).Contents (Elt F) := ((fun x v => Host.reduceAdd x v reducesTo_S640x50x1024_S640x50_d2 h_S_) : (⟨S640x50x1024, .f32⟩ : BufTy).Contents (Elt F) → (⟨S_, .f32⟩ : BufTy).Contents (Elt F) → (⟨S640x50, .f32⟩ : BufTy).Contents (Elt F)) main_v46 main_cst_10
  have main_v48 : (⟨S640x50x1, .f32⟩ : BufTy).Contents (Elt F) := (broadcastInDim S640x50x1 ![0, 1] bcast_S640x50_S640x50x1_0_1 : (⟨S640x50, .f32⟩ : BufTy).Contents (Elt F) → (⟨S640x50x1, .f32⟩ : BufTy).Contents (Elt F)) main_v47
  have main_v49 : (⟨S640x50x1, .f32⟩ : BufTy).Contents (Elt F) := (Host.sqrt : (⟨S640x50x1, .f32⟩ : BufTy).Contents (Elt F) → (⟨S640x50x1, .f32⟩ : BufTy).Contents (Elt F)) main_v48
  have main_cst_11 : (⟨S_, .f32⟩ : BufTy).Contents (Elt F) := (constant S_ .f32 0x322BCC77#32)
  have main_v50 : (⟨S640x50x1, .f32⟩ : BufTy).Contents (Elt F) := (broadcastInDim S640x50x1 ![] bcast_S_S640x50x1 : (⟨S_, .f32⟩ : BufTy).Contents (Elt F) → (⟨S640x50x1, .f32⟩ : BufTy).Contents (Elt F)) main_cst_11
  have main_v51 : (⟨S640x50x1, .f32⟩ : BufTy).Contents (Elt F) := (addf : (⟨S640x50x1, .f32⟩ : BufTy).Contents (Elt F) → (⟨S640x50x1, .f32⟩ : BufTy).Contents (Elt F) → (⟨S640x50x1, .f32⟩ : BufTy).Contents (Elt F)) main_v49 main_v50
  have main_v52 : (⟨S640x50x1024, .f32⟩ : BufTy).Contents (Elt F) := (broadcastInDim S640x50x1024 ![0, 1, 2] bcast_S640x50x1_S640x50x1024_0_1_2 : (⟨S640x50x1, .f32⟩ : BufTy).Contents (Elt F) → (⟨S640x50x1024, .f32⟩ : BufTy).Contents (Elt F)) main_v51
  have main_v53 : (⟨S640x50x1024, .f32⟩ : BufTy).Contents (Elt F) := (Host.divf : (⟨S640x50x1024, .f32⟩ : BufTy).Contents (Elt F) → (⟨S640x50x1024, .f32⟩ : BufTy).Contents (Elt F) → (⟨S640x50x1024, .f32⟩ : BufTy).Contents (Elt F)) main_v45 main_v52
  main_v53

/-- Lines main_v54 … main_v56 of the program. -/
def maskF2 (main_arg2 : (⟨S640, .i32⟩ : BufTy).Contents (Elt F)) :
    (⟨S640x50x1024, .f32⟩ : BufTy).Contents (Elt F) :=
  have main_v5 : (⟨S640x50, .i1⟩ : BufTy).Contents (Elt F) := maskBits main_arg2
  have main_v54 : (⟨S640x50x1, .i1⟩ : BufTy).Contents (Elt F) := (broadcastInDim S640x50x1 ![0, 1] bcast_S640x50_S640x50x1_0_1 : (⟨S640x50, .i1⟩ : BufTy).Contents (Elt F) → (⟨S640x50x1, .i1⟩ : BufTy).Contents (Elt F)) main_v5
  have main_v55 : (⟨S640x50x1, .f32⟩ : BufTy).Contents (Elt F) := (uitofp .f32 : (⟨S640x50x1, .i1⟩ : BufTy).Contents (Elt F) → (⟨S640x50x1, .f32⟩ : BufTy).Contents (Elt F)) main_v54
  have main_v56 : (⟨S640x50x1024, .f32⟩ : BufTy).Contents (Elt F) := (broadcastInDim S640x50x1024 ![0, 1, 2] bcast_S640x50x1_S640x50x1024_0_1_2 : (⟨S640x50x1, .f32⟩ : BufTy).Contents (Elt F) → (⟨S640x50x1024, .f32⟩ : BufTy).Contents (Elt F)) main_v55
  main_v56

/-- Lines main_v57 … main_v58 of the program. -/
def wordSum (main_arg1 : (⟨S640x50x1024, .f32⟩ : BufTy).Contents (Elt F)) (main_arg2 : (⟨S640, .i32⟩ : BufTy).Contents (Elt F)) :
    (⟨S640x1024, .f32⟩ : BufTy).Contents (Elt F) :=
  have main_v53 : (⟨S640x50x1024, .f32⟩ : BufTy).Contents (Elt F) := capUnit main_arg1
  have main_v56 : (⟨S640x50x1024, .f32⟩ : BufTy).Contents (Elt F) := maskF2 main_arg2
  have main_v57 : (⟨S640x50x1024, .f32⟩ : BufTy).Contents (Elt F) := (mulf : (⟨S640x50x1024, .f32⟩ : BufTy).Contents (Elt F) → (⟨S640x50x1024, .f32⟩ : BufTy).Contents (Elt F) → (⟨S640x50x1024, .f32⟩ : BufTy).Contents (Elt F)) main_v53 main_v56
  have main_cst_12 : (⟨S_, .f32⟩ : BufTy).Contents (Elt F) := (constant S_ .f32 0x00000000#32)
  have main_v58 : (⟨S640x1024, .f32⟩ : BufTy).Contents (Elt F) := ((fun x v => Host.reduceAdd x v reducesTo_S640x50x1024_S640x1024_d1 h_S_) : (⟨S640x50x1024, .f32⟩ : BufTy).Contents (Elt F) → (⟨S_, .f32⟩ : BufTy).Contents (Elt F) → (⟨S640x1024, .f32⟩ : BufTy).Contents (Elt F)) main_v57 main_cst_12
  main_v58

/-- Lines main_cst_13 … main_v59 of the program. -/
def imgSum2 (main_arg0 : (⟨S128x36x1024, .f32⟩ : BufTy).Contents (Elt F)) :
    (⟨S128x1024, .f32⟩ : BufTy).Contents (Elt F) :=
  have main_v15 : (⟨S128x36x1024, .f32⟩ : BufTy).Contents (Elt F) := imgUnit main_arg0
  have main_cst_13 : (⟨S_, .f32⟩ : BufTy).Contents (Elt F) := (constant S_ .f32 0x00000000#32)
  have main_v59 : (⟨S128x1024, .f32⟩ : BufTy).Contents (Elt F) := ((fun x v => Host.reduceAdd x v reducesTo_S128x36x1024_S128x1024_d1 h_S_) : (⟨S128x36x1024, .f32⟩ : BufTy).Contents (Elt F) → (⟨S_, .f32⟩ : BufTy).Contents (Elt F) → (⟨S128x1024, .f32⟩ : BufTy).Contents (Elt F)) main_v15 main_cst_13
  main_v59

/-- Lines main_v60 … main_v60 of the program. -/
def wordSumT (main_arg1 : (⟨S640x50x1024, .f32⟩ : BufTy).Contents (Elt F)) (main_arg2 : (⟨S640, .i32⟩ : BufTy).Contents (Elt F)) :
    (⟨S1024x640, .f32⟩ : BufTy).Contents (Elt F) :=
  have main_v58 : (⟨S640x1024, .f32⟩ : BufTy).Contents (Elt F) := wordSum main_arg1 main_arg2
  have main_v60 : (⟨S1024x640, .f32⟩ : BufTy).Contents (Elt F) := ((transpose S1024x640 [1, 0] · transposes_S640x1024_S1024x640_1_0) : (⟨S640x1024, .f32⟩ : BufTy).Contents (Elt F) → (⟨S1024x640, .f32⟩ : BufTy).Contents (Elt F)) main_v58
  main_v60

/-- Lines main_v61 … main_v61 of the program. -/
def simSum (main_arg0 : (⟨S128x36x1024, .f32⟩ : BufTy).Contents (Elt F)) (main_arg1 : (⟨S640x50x1024, .f32⟩ : BufTy).Contents (Elt F)) (main_arg2 : (⟨S640, .i32⟩ : BufTy).Contents (Elt F)) :
    (⟨S128x640, .f32⟩ : BufTy).Contents (Elt F) :=
  have main_v59 : (⟨S128x1024, .f32⟩ : BufTy).Contents (Elt F) := imgSum2 main_arg0
  have main_v60 : (⟨S1024x640, .f32⟩ : BufTy).Contents (Elt F) := wordSumT main_arg1 main_arg2
  have main_v61 : (⟨S128x640, .f32⟩ : BufTy).Contents (Elt F) := ((fun l r => Host.dotGeneral dot_S128x1024_S1024x640_S128x640_1_0_0_1_n_n none l r) : (⟨S128x1024, .f32⟩ : BufTy).Contents (Elt F) → (⟨S1024x640, .f32⟩ : BufTy).Contents (Elt F) → (⟨S128x640, .f32⟩ : BufTy).Contents (Elt F)) main_v59 main_v60
  main_v61

/-- Lines main_v62 … main_v65 of the program. -/
def scale (main_arg2 : (⟨S640, .i32⟩ : BufTy).Contents (Elt F)) :
    (⟨S128x640, .f32⟩ : BufTy).Contents (Elt F) :=
  have main_v6 : (⟨S640, .f32⟩ : BufTy).Contents (Elt F) := lenF main_arg2
  have main_v62 : (⟨S1x640, .f32⟩ : BufTy).Contents (Elt F) := (broadcastInDim S1x640 ![1] bcast_S640_S1x640_1 : (⟨S640, .f32⟩ : BufTy).Contents (Elt F) → (⟨S1x640, .f32⟩ : BufTy).Contents (Elt F)) main_v6
  have main_cst_14 : (⟨S_, .f32⟩ : BufTy).Contents (Elt F) := (constant S_ .f32 0x42100000#32)
  have main_v63 : (⟨S1x640, .f32⟩ : BufTy).Contents (Elt F) := (broadcastInDim S1x640 ![] bcast_S_S1x640 : (⟨S_, .f32⟩ : BufTy).Contents (Elt F) → (⟨S1x640, .f32⟩ : BufTy).Contents (Elt F)) main_cst_14
  have main_v64 : (⟨S1x640, .f32⟩ : BufTy).Contents (Elt F) := (mulf : (⟨S1x640, .f32⟩ : BufTy).Contents (Elt F) → (⟨S1x640, .f32⟩ : BufTy).Contents (Elt F) → (⟨S1x640, .f32⟩ : BufTy).Contents (Elt F)) main_v63 main_v62
  have main_v65 : (⟨S128x640, .f32⟩ : BufTy).Contents (Elt F) := (broadcastInDim S128x640 ![0, 1] bcast_S1x640_S128x640_0_1 : (⟨S1x640, .f32⟩ : BufTy).Contents (Elt F) → (⟨S128x640, .f32⟩ : BufTy).Contents (Elt F)) main_v64
  main_v65

/-- Lines main_v66 … main_v69 of the program. -/
def entry (main_arg0 : (⟨S128x36x1024, .f32⟩ : BufTy).Contents (Elt F)) (main_arg1 : (⟨S640x50x1024, .f32⟩ : BufTy).Contents (Elt F)) (main_arg2 : (⟨S640, .i32⟩ : BufTy).Contents (Elt F)) :
    (⟨S128x640, .f32⟩ : BufTy).Contents (Elt F) :=
  have main_v44 : (⟨S128x640, .f32⟩ : BufTy).Contents (Elt F) := simMean main_arg0 main_arg1 main_arg2
  have main_v61 : (⟨S128x640, .f32⟩ : BufTy).Contents (Elt F) := simSum main_arg0 main_arg1 main_arg2
  have main_v65 : (⟨S128x640, .f32⟩ : BufTy).Contents (Elt F) := scale main_arg2
  have main_v66 : (⟨S128x640, .f32⟩ : BufTy).Contents (Elt F) := (Host.divf : (⟨S128x640, .f32⟩ : BufTy).Contents (Elt F) → (⟨S128x640, .f32⟩ : BufTy).Contents (Elt F) → (⟨S128x640, .f32⟩ : BufTy).Contents (Elt F)) main_v61 main_v65
  have main_v67 : (⟨S128x640, .f32⟩ : BufTy).Contents (Elt F) := (addf : (⟨S128x640, .f32⟩ : BufTy).Contents (Elt F) → (⟨S128x640, .f32⟩ : BufTy).Contents (Elt F) → (⟨S128x640, .f32⟩ : BufTy).Contents (Elt F)) main_v66 main_v44
  have main_cst_15 : (⟨S_, .f32⟩ : BufTy).Contents (Elt F) := (constant S_ .f32 0x40000000#32)
  have main_v68 : (⟨S128x640, .f32⟩ : BufTy).Contents (Elt F) := (broadcastInDim S128x640 ![] bcast_S_S128x640 : (⟨S_, .f32⟩ : BufTy).Contents (Elt F) → (⟨S128x640, .f32⟩ : BufTy).Contents (Elt F)) main_cst_15
  have main_v69 : (⟨S128x640, .f32⟩ : BufTy).Contents (Elt F) := (Host.divf : (⟨S128x640, .f32⟩ : BufTy).Contents (Elt F) → (⟨S128x640, .f32⟩ : BufTy).Contents (Elt F) → (⟨S128x640, .f32⟩ : BufTy).Contents (Elt F)) main_v67 main_v68
  main_v69

set_option maxRecDepth 8192 in
/-- The program is its last stage. -/
theorem refTerm_eq_entry (a0 : (⟨S128x36x1024, .f32⟩ : BufTy).Contents (Elt F)) (a1 : (⟨S640x50x1024, .f32⟩ : BufTy).Contents (Elt F))
    (a2 : (⟨S640, .i32⟩ : BufTy).Contents (Elt F)) :
    Cert.ReferenceIdeal.Term.refTerm (F := F) a0 a1 a2 = entry a0 a1 a2 := rfl

end Cert.ReferenceIdeal.RefValue

end
-- ==== Proof.RefImage.lean ====
/-
  The image side of the reference, read index by index: the rectified regions, each divided by its Euclidean norm plus
  the small constant, their sum over the 36 regions, that sum divided by 36 (the image's mean vector), and the mean
  vector normalized again.
-/
import proofs.«163725_j65214783422660_2_alg».proof.Proof.Spec
import proofs.«163725_j65214783422660_2_alg».proof.Proof.LibHostReads
import proofs.«163725_j65214783422660_2_alg».proof.Proof.RefStages

noncomputable section

open scoped BigOperators

namespace Cert.ReferenceIdeal.RefValue

open Cert.ReferenceIdeal Idealize.ShloMosaic Idealize.ShloMosaic.ValueIdx Idealize.ShloMosaic.HostReads Cert.RegionCorr

variable (a0 : (⟨S128x36x1024, .f32⟩ : BufTy).Contents (Elt Ideal))

/-- The image's region sum as the specification writes it. -/
abbrev Ri (i : Fin 128) : Fin 1024 → EReal := regionSumRow fun r d => a0 (ix3 i r d)

/-- The rectified features. -/
theorem imgLeaky_apply (i : Fin 128) (r : Fin 36) (d : Fin 1024) :
    imgLeaky (F := Ideal) a0 (ix3 i r d) = leaky (a0 (ix3 i r d)) := by
  unfold imgLeaky
  simp only [select_apply, cmpf_apply, mulf_apply, broadcastInDim_scalar_apply, constant_apply, id]
  rfl

/-- Each region divided by its norm plus the small constant. -/
theorem imgUnit_apply (i : Fin 128) (r : Fin 36) (d : Fin 1024) :
    imgUnit (F := Ideal) a0 (ix3 i r d) = unitRow (leakyRow fun k => a0 (ix3 i r k)) d := by
  unfold imgUnit
  simp only [hostDivf_apply, bcast_lane3_apply (a := 128) (b := 36) (c := 1024), addf_apply, hostSqrt_apply,
    bcast_keep3_apply (a := 128) (b := 36), hostReduceAdd_apply,
    hostSum3_last_apply (a := 128) (b := 36) (c := 1024) _ (by decide), mulf_apply, broadcastInDim_scalar_apply,
    constant_apply, Ideal.ofBits_zero_f32, zero_add, imgLeaky_apply]
  rfl

/-- The sum of an image's normalized regions (the program computes it twice). -/
theorem imgSum_apply (i : Fin 128) (d : Fin 1024) : imgSum (F := Ideal) a0 (ix2 i d) = Ri a0 i d := by
  unfold imgSum
  simp only [hostReduceAdd_apply, hostSum3_mid_apply (a := 128) (b := 36) (c := 1024) _ (by decide), constant_apply,
    Ideal.ofBits_zero_f32, zero_add, imgUnit_apply]
  rfl

theorem imgSum2_apply (i : Fin 128) (d : Fin 1024) : imgSum2 (F := Ideal) a0 (ix2 i d) = Ri a0 i d := by
  unfold imgSum2
  simp only [hostReduceAdd_apply, hostSum3_mid_apply (a := 128) (b := 36) (c := 1024) _ (by decide), constant_apply,
    Ideal.ofBits_zero_f32, zero_add, imgUnit_apply]
  rfl

/-- The image's mean vector: the region sum divided by 36. -/
theorem imgMean_apply (i : Fin 128) (d : Fin 1024) : imgMean (F := Ideal) a0 (ix2 i d) = imgVecRow (Ri a0 i) d := by
  unfold imgMean
  simp only [hostDivf_apply, broadcastInDim_scalar_apply, constant_apply, imgSum_apply]
  rfl

/-- The mean vector divided by its norm plus the small constant. -/
theorem imgMeanUnit_apply (i : Fin 128) (d : Fin 1024) :
    imgMeanUnit (F := Ideal) a0 (ix2 i d) = unitRow (imgVecRow (Ri a0 i)) d := by
  unfold imgMeanUnit
  simp only [hostDivf_apply, bcast_col_apply (a := 128) (b := 1024), addf_apply, hostSqrt_apply,
    bcast_toCol_apply (a := 128), hostReduceAdd_apply,
    hostSum2_apply (a := 128) (b := 1024) _ (by decide), mulf_apply, broadcastInDim_scalar_apply, constant_apply,
    Ideal.ofBits_zero_f32, zero_add, imgMean_apply]
  rfl

end Cert.ReferenceIdeal.RefValue

end
-- ==== Proof.RefCaption.lean ====
/-
  The caption side of the reference, read index by index: the caption's length as a number, the word mask, the masked
  sum of the raw words divided by the length (the caption's mean vector) and its normalization, the rectified words
  each divided by its Euclidean norm plus the small constant, and their masked sum.
-/
import proofs.«163725_j65214783422660_2_alg».proof.Proof.Spec
import proofs.«163725_j65214783422660_2_alg».proof.Proof.LibHostReads
import proofs.«163725_j65214783422660_2_alg».proof.Proof.RefStages

noncomputable section

open scoped BigOperators

namespace Cert.ReferenceIdeal.RefValue

open Cert.ReferenceIdeal Idealize.ShloMosaic Idealize.ShloMosaic.ValueIdx Idealize.ShloMosaic.HostReads Cert.RegionCorr

variable (a1 : (⟨S640x50x1024, .f32⟩ : BufTy).Contents (Elt Ideal)) (a2 : (⟨S640, .i32⟩ : BufTy).Contents (Elt Ideal))

/-- A caption's words as the specification indexes them. -/
abbrev Bc (c : Fin 640) : Fin 50 → Fin 1024 → EReal := fun w d => a1 (ix3 c w d)

/-- The caption's length as a number. -/
theorem lenF_apply (c : Fin 640) : lenF (F := Ideal) a2 (ix1 c) = lenf (a2 (ix1 c)) := rfl

/-- The one-bit mask "word w lies before the caption's length". -/
theorem maskBits_apply (c : Fin 640) (w : Fin 50) :
    maskBits (F := Ideal) a2 (ix2 c w) = maskBit (a2 (ix1 c)) w.val := by
  unfold maskBits
  simp only [cmpi_apply, bcast_row_apply (a := 640) (b := 50), bcast_col_apply (a := 640) (b := 50),
    bcast_toRow_apply (b := 50), bcast_toCol_apply (a := 640), iotaInDim_apply]
  rfl

/-- The mask as a number, repeated along the features (the program builds it twice). -/
theorem maskF_apply (c : Fin 640) (w : Fin 50) (d : Fin 1024) :
    maskF (F := Ideal) a2 (ix3 c w d) = maskAt (a2 (ix1 c)) w := by
  unfold maskF
  simp only [bcast_lane3_apply (a := 640) (b := 50) (c := 1024), uitofp_apply, bcast_keep3_apply (a := 640) (b := 50),
    maskBits_apply]
  rfl

theorem maskF2_apply (c : Fin 640) (w : Fin 50) (d : Fin 1024) :
    maskF2 (F := Ideal) a2 (ix3 c w d) = maskAt (a2 (ix1 c)) w := by
  unfold maskF2
  simp only [bcast_lane3_apply (a := 640) (b := 50) (c := 1024), uitofp_apply, bcast_keep3_apply (a := 640) (b := 50),
    maskBits_apply]
  rfl

/-- The masked sum of the raw words. -/
theorem rawSum_apply (c : Fin 640) (d : Fin 1024) :
    rawSum (F := Ideal) a1 a2 (ix2 c d) = rawSumRow (Bc a1 c) (a2 (ix1 c)) d := by
  unfold rawSum
  simp only [hostReduceAdd_apply, hostSum3_mid_apply (a := 640) (b := 50) (c := 1024) _ (by decide), mulf_apply,
    constant_apply, Ideal.ofBits_zero_f32, zero_add, maskF_apply]
  rfl

/-- The caption's mean vector: the masked sum divided by the length. -/
theorem capMean_apply (c : Fin 640) (d : Fin 1024) :
    capMean (F := Ideal) a1 a2 (ix2 c d) = capVecRow (Bc a1 c) (a2 (ix1 c)) d := by
  unfold capMean
  simp only [hostDivf_apply, bcast_col_apply (a := 640) (b := 1024), bcast_toCol_apply (a := 640), rawSum_apply, lenF_apply]
  rfl

/-- The mean vector divided by its norm plus the small constant … -/
theorem capMeanUnit_apply (c : Fin 640) (d : Fin 1024) :
    capMeanUnit (F := Ideal) a1 a2 (ix2 c d) = unitRow (capVecRow (Bc a1 c) (a2 (ix1 c))) d := by
  unfold capMeanUnit
  simp only [hostDivf_apply, bcast_col_apply (a := 640) (b := 1024), addf_apply, hostSqrt_apply,
    bcast_toCol_apply (a := 640), hostReduceAdd_apply,
    hostSum2_apply (a := 640) (b := 1024) _ (by decide), mulf_apply, broadcastInDim_scalar_apply, constant_apply,
    Ideal.ofBits_zero_f32, zero_add, capMean_apply]
  rfl

/-- … and transposed. -/
theorem capMeanUnitT_apply (d : Fin 1024) (c : Fin 640) :
    capMeanUnitT (F := Ideal) a1 a2 (ix2 d c) = unitRow (capVecRow (Bc a1 c) (a2 (ix1 c))) d := by
  unfold capMeanUnitT
  simp only [transpose2_apply (a := 640) (b := 1024), capMeanUnit_apply]

/-- The rectified words. -/
theorem capLeaky_apply (c : Fin 640) (w : Fin 50) (d : Fin 1024) :
    capLeaky (F := Ideal) a1 (ix3 c w d) = leaky (a1 (ix3 c w d)) := by
  unfold capLeaky
  simp only [select_apply, cmpf_apply, mulf_apply, broadcastInDim_scalar_apply, constant_apply, id]
  rfl

/-- Each word divided by its norm plus the small constant. -/
theorem capUnit_apply (c : Fin 640) (w : Fin 50) (d : Fin 1024) :
    capUnit (F := Ideal) a1 (ix3 c w d) = unitRow (leakyRow (Bc a1 c w)) d := by
  unfold capUnit
  simp only [hostDivf_apply, bcast_lane3_apply (a := 640) (b := 50) (c := 1024), addf_apply, hostSqrt_apply,
    bcast_keep3_apply (a := 640) (b := 50), hostReduceAdd_apply,
    hostSum3_last_apply (a := 640) (b := 50) (c := 1024) _ (by decide), mulf_apply, broadcastInDim_scalar_apply,
    constant_apply, Ideal.ofBits_zero_f32, zero_add, capLeaky_apply]
  rfl

/-- The masked sum of the normalized words … -/
theorem wordSum_apply (c : Fin 640) (d : Fin 1024) :
    wordSum (F := Ideal) a1 a2 (ix2 c d) = wordSumRow (Bc a1 c) (a2 (ix1 c)) d := by
  unfold wordSum
  simp only [hostReduceAdd_apply, hostSum3_mid_apply (a := 640) (b := 50) (c := 1024) _ (by decide), mulf_apply,
    constant_apply, Ideal.ofBits_zero_f32, zero_add, capUnit_apply, maskF2_apply]
  rfl

/-- … and transposed. -/
theorem wordSumT_apply (d : Fin 1024) (c : Fin 640) :
    wordSumT (F := Ideal) a1 a2 (ix2 d c) = wordSumRow (Bc a1 c) (a2 (ix1 c)) d := by
  unfold wordSumT
  simp only [transpose2_apply (a := 640) (b := 1024), wordSum_apply]

/-- 36 times the length, as the program spreads it over the result's shape. -/
theorem scale_apply (i : Fin 128) (c : Fin 640) : scale (F := Ideal) a2 (ix2 i c) = c36 * lenf (a2 (ix1 c)) := by
  unfold scale
  simp only [bcast_row_apply (a := 128) (b := 640), mulf_apply, broadcastInDim_scalar_apply, constant_apply,
    bcast_toRow_apply (b := 640), lenF_apply]
  rfl

end Cert.ReferenceIdeal.RefValue

end
-- ==== Proof.RefValue.lean ====
/-
  The reference's value at one output entry. The two inner products are host dot products contracting the feature axis
  (the second factor reaches them transposed), so each is the sum over the 1024 features of the two factors' products;
  with the image-side and caption-side readings the entry is the specification's `pairR`.
-/
import proofs.«163725_j65214783422660_2_alg».proof.Proof.Spec
import proofs.«163725_j65214783422660_2_alg».proof.Proof.LibHostReads
import proofs.«163725_j65214783422660_2_alg».proof.Proof.RefStages
import proofs.«163725_j65214783422660_2_alg».proof.Proof.RefImage
import proofs.«163725_j65214783422660_2_alg».proof.Proof.RefCaption

noncomputable section

open scoped BigOperators

namespace Cert.ReferenceIdeal.RefValue

open Cert.ReferenceIdeal Idealize.ShloMosaic Idealize.ShloMosaic.ValueIdx Idealize.ShloMosaic.HostReads Cert.RegionCorr

/-- The program's dot product [128, 1024] · [1024, 640], at (i, c): the sum over the contracted axis. -/
theorem dot_apply (l : FVec Ideal S128x1024 .f32) (r : FVec Ideal S1024x640 .f32) (i : Fin 128) (c : Fin 640) :
    Host.dotGeneral dot_S128x1024_S1024x640_S128x640_1_0_0_1_n_n none l r (ix2 i c) = ∑ k : Fin 1024, l (ix2 i k) * r (ix2 k c) := by
  have hr : (dot_S128x1024_S1024x640_S128x640_1_0_0_1_n_n).contr.rank = 1 := rfl
  have hs : (dot_S128x1024_S1024x640_S128x640_1_0_0_1_n_n).contr.size ⟨0, by rw [hr]; exact Nat.one_pos⟩ = 1024 := rfl
  refine (Ideal.dotGeneral_apply dot_S128x1024_S1024x640_S128x640_1_0_0_1_n_n none .single l r (ix2 i c)).trans ?_
  rw [← Equiv.sum_comp (contrEquiv1 dot_S128x1024_S1024x640_S128x640_1_0_0_1_n_n 1024 hr hs).symm]
  refine Finset.sum_congr rfl fun k _ => ?_
  congr 1
  · refine congrArg l (funext fun a => Fin.ext ?_)
    match a with
    | ⟨0, _⟩ => rfl
    | ⟨1, _⟩ =>
      exact (DotDims.lhsIdx_val_of_single dot_S128x1024_S1024x640_S128x640_1_0_0_1_n_n rfl _ _).trans (contrEquiv1_symm_val dot_S128x1024_S1024x640_S128x640_1_0_0_1_n_n 1024 hr hs k)
  · refine congrArg r (funext fun a => Fin.ext ?_)
    match a with
    | ⟨0, _⟩ =>
      exact (DotDims.rhsIdx_val_of_single dot_S128x1024_S1024x640_S128x640_1_0_0_1_n_n rfl _ _).trans (contrEquiv1_symm_val dot_S128x1024_S1024x640_S128x640_1_0_0_1_n_n 1024 hr hs k)
    | ⟨1, _⟩ => rfl

variable (a0 : (⟨S128x36x1024, .f32⟩ : BufTy).Contents (Elt Ideal)) (a1 : (⟨S640x50x1024, .f32⟩ : BufTy).Contents (Elt Ideal)) (a2 : (⟨S640, .i32⟩ : BufTy).Contents (Elt Ideal))

/-- The first similarity: the inner product of the two normalized mean vectors. -/
theorem simMean_apply (i : Fin 128) (c : Fin 640) :
    simMean (F := Ideal) a0 a1 a2 (ix2 i c)
      = ∑ d : Fin 1024, unitRow (imgVecRow (Ri a0 i)) d * unitRow (capVecRow (Bc a1 c) (a2 (ix1 c))) d := by
  unfold simMean
  simp only [dot_apply, imgMeanUnit_apply, capMeanUnitT_apply]

/-- The second similarity before its division: the inner product of the region sum and the masked word sum. -/
theorem simSum_apply (i : Fin 128) (c : Fin 640) :
    simSum (F := Ideal) a0 a1 a2 (ix2 i c) = ∑ d : Fin 1024, Ri a0 i d * wordSumRow (Bc a1 c) (a2 (ix1 c)) d := by
  unfold simSum
  simp only [dot_apply, imgSum2_apply, wordSumT_apply]

/-- The entry: the half of (second similarity divided by 36 · length, plus first similarity). -/
theorem entry_apply (i : Fin 128) (c : Fin 640) :
    entry (F := Ideal) a0 a1 a2 (ix2 i c) = pairR (Ri a0 i) (Bc a1 c) (a2 (ix1 c)) := by
  unfold entry
  simp only [hostDivf_apply, addf_apply, broadcastInDim_scalar_apply, constant_apply, simSum_apply, scale_apply,
    simMean_apply]
  rfl

/-- The reference's result at (i, c) is the specification's entry in the reference's order of factors and terms. -/
theorem refTerm_apply (a0 : (⟨S128x36x1024, .f32⟩ : BufTy).Contents (Elt Ideal)) (a1 : (⟨S640x50x1024, .f32⟩ : BufTy).Contents (Elt Ideal))
    (a2 : (⟨S640, .i32⟩ : BufTy).Contents (Elt Ideal)) (i : Fin 128) (c : Fin 640) :
    Cert.ReferenceIdeal.Term.refTerm (F := Ideal) a0 a1 a2 (ix2 i c)
      = Cert.RegionCorr.pairR (Cert.RegionCorr.regionSumRow fun r d => a0 (ix3 i r d)) (fun w d => a1 (ix3 c w d)) (a2 (ix1 c)) := by
  rw [refTerm_eq_entry]
  exact entry_apply a0 a1 a2 i c

end Cert.ReferenceIdeal.RefValue

end
-- ==== Proof.lean ====
/-
  The certificate of the region-correlation kernel against its jnp reference.

  Both programs compute, for image i and caption c, the half of two similarities: the inner product of the normalized mean
  vectors of the image's rectified, row-normalized regions and of the caption's masked raw words; and the inner product of the
  image's region sum with the caption's masked sum of rectified, row-normalized words, divided by 36 times the caption's length
  (Proof/Spec.lean). The kernel program does it in two tiled regions (region sums of 32 images at a time; then 32 captions at a time
  against all 128 region sums, the result transposed by the host); the reference in one host program. At the ideal values every
  rounding is the identity, a sum is the same sum in any order, and the two differ only in the order of the factors inside the
  inner products and of the two terms of the final sum: commutativity of the product and of the sum of extended reals, which needs no
  finiteness (`pairR_eq_pairK`). The precondition is therefore not used by the value claim.

  The three frames: the two kernel programs' are the generated frame proofs; the reference's is its run with the result dropped.
  The idealization rewrote nothing, so `preserves` is trivial.
-/
import proofs.«163725_j65214783422660_2_alg».proof.Defs
import proofs.«163725_j65214783422660_2_alg».proof.Proof.Gen.Kernel
import proofs.«163725_j65214783422660_2_alg».proof.Proof.Gen.Kernel.Frame
import proofs.«163725_j65214783422660_2_alg».proof.Proof.Gen.KernelIdeal
import proofs.«163725_j65214783422660_2_alg».proof.Proof.Gen.KernelIdeal.Frame
import proofs.«163725_j65214783422660_2_alg».proof.Proof.Gen.ReferenceIdeal
import proofs.«163725_j65214783422660_2_alg».proof.Proof.Gen.Pre_finite_inputs
import proofs.«163725_j65214783422660_2_alg».proof.Proof.KernelRun
import proofs.«163725_j65214783422660_2_alg».proof.Proof.KernelValue
import proofs.«163725_j65214783422660_2_alg».proof.Proof.RefOut
import proofs.«163725_j65214783422660_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the three arguments, the kernel program's result array (the last boundary's contents at the
    result buffer) and the reference's result term are equal entry by entry: (i, c) is `pairK` on one side and `pairR` on the other, of
    the same image, caption and length. -/
theorem algebraic : Cert.algebraic_KernelIdeal_ReferenceIdeal := by
  intro m ρ m' ρ' _ hagree
  refine ⟨fun c => Cert.KernelIdeal.Gen.W4 m ρ c (Proc.devRef .tc Cert.KernelIdeal.main_v3),
    Cert.KernelIdeal.KRun.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  funext j
  obtain ⟨i, cc, rfl⟩ : ∃ (i : Fin 128) (cc : Fin 640), j = ix2 i cc := ⟨j 0, j 1, eq_ix2 j⟩
  rw [Cert.ReferenceIdeal.RefValue.refTerm_apply, Cert.RegionCorr.pairR_eq_pairK]
  exact (Cert.KernelIdeal.KValue.result_apply m ρ c i cc).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
